-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x512x512 : Shape := ⟨4, ![2, 16, 512, 512]⟩
abbrev S512x1536 : Shape := ⟨2, ![512, 1536]⟩
abbrev S512x512 : Shape := ⟨2, ![512, 512]⟩
abbrev S512 : Shape := ⟨1, ![512]⟩
abbrev S_ : Shape := ⟨0, ![]⟩

class Facts : Prop where
  bcast_S_S2x16x512x512 : S_.BroadcastsInDim S2x16x512x512 (![] : Fin 0 → Fin S2x16x512x512.rank)
  reducesTo_S2x16x512x512_S_d0_1_2_3 : S2x16x512x512.ReducesTo [0, 1, 2, 3] S_
  h_S_ : 0 < S_.numel
  bcast_S_S512x1536 : S_.BroadcastsInDim S512x1536 (![] : Fin 0 → Fin S512x1536.rank)
  reducesTo_S512x1536_S_d0_1 : S512x1536.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S2x16x512x512 .f32) (main_arg1 : FVec F S512x1536 .f32) (main_arg2 : FVec F S512x512 .f32) (main_arg3 : FVec F S512 .f32) : IVec S_ 1 :=
  let main_v0 : FVec F S2x16x512x512 .f32 := Host.absf main_arg0
  let main_cst : FVec F S_ .f32 := constant S_ .f32 0x7F800000#32
  let main_v1 : FVec F S2x16x512x512 .f32 := broadcastInDim S2x16x512x512 ![] bcast_S_S2x16x512x512 main_cst
  let main_v2 : IVec S2x16x512x512 1 := cmpf .olt main_v0 main_v1
  let main_c : IVec S_ 1 := constantI S_ 1 1#1
  let main_v3 : IVec S_ 1 := (fun x v => Host.reduce IntOp.andi x v reducesTo_S2x16x512x512_S_d0_1_2_3 h_S_) main_v2 main_c
  let main_v4 : FVec F S512x1536 .f32 := Host.absf main_arg1
  let main_cst_0 : FVec F S_ .f32 := constant S_ .f32 0x7F800000#32
  let main_v5 : FVec F S512x1536 .f32 := broadcastInDim S512x1536 ![] bcast_S_S512x1536 main_cst_0
  let main_v6 : IVec S512x1536 1 := cmpf .olt main_v4 main_v5
  let main_c_1 : IVec S_ 1 := constantI S_ 1 1#1
  let main_v7 : IVec S_ 1 := (fun x v => Host.reduce IntOp.andi x v reducesTo_S512x1536_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S2x16x512x512 : Shape := ⟨4, ![2, 16, 512, 512]⟩
abbrev S512x1536 : Shape := ⟨2, ![512, 1536]⟩
abbrev S512x512 : Shape := ⟨2, ![512, 512]⟩
abbrev S512 : Shape := ⟨1, ![512]⟩
abbrev S32x512x512 : Shape := ⟨3, ![32, 512, 512]⟩
abbrev S1x512x512 : Shape := ⟨3, ![1, 512, 512]⟩
abbrev S512x64 : Shape := ⟨2, ![512, 64]⟩
abbrev S64x512 : Shape := ⟨2, ![64, 512]⟩
abbrev S512x1 : Shape := ⟨2, ![512, 1]⟩
abbrev S1x512 : Shape := ⟨2, ![1, 512]⟩

abbrev nBuf : Space → Nat
  | .hbm => 9
  | .vmem => 8
  | .smem => 0
  | _ => 0

abbrev bufTy : (tb : Table) → Fin (tcTables nBuf tb) → BufTy
  | .hbm, ⟨0, _⟩ => ⟨S2x16x512x512, .f32⟩
  | .hbm, ⟨1, _⟩ => ⟨S512x1536, .f32⟩
  | .hbm, ⟨2, _⟩ => ⟨S512x512, .f32⟩
  | .hbm, ⟨3, _⟩ => ⟨S512, .f32⟩
  | .hbm, ⟨4, _⟩ => ⟨S32x512x512, .f32⟩
  | .hbm, ⟨5, _⟩ => ⟨S512x1536, .bf16⟩
  | .hbm, ⟨6, _⟩ => ⟨S512x512, .bf16⟩
  | .hbm, ⟨7, _⟩ => ⟨S32x512x512, .f32⟩
  | .hbm, ⟨8, _⟩ => ⟨S2x16x512x512, .f32⟩
  | .local _ .vmem, ⟨0, _⟩ => ⟨S1x512x512, .f32⟩
  | .local _ .vmem, ⟨1, _⟩ => ⟨S1x512x512, .f32⟩
  | .local _ .vmem, ⟨2, _⟩ => ⟨S512x1536, .bf16⟩
  | .local _ .vmem, ⟨3, _⟩ => ⟨S512x512, .bf16⟩
  | .local _ .vmem, ⟨4, _⟩ => ⟨S512, .f32⟩
  | .local _ .vmem, ⟨5, _⟩ => ⟨S1x512x512, .f32⟩
  | .local _ .vmem, ⟨6, _⟩ => ⟨S1x512x512, .f32⟩
  | .local _ .vmem, ⟨7, _⟩ => ⟨S512x512, .bf16⟩
  | _, _ => ⟨S2x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2x16x512x512_S32x512x512 : S2x16x512x512.ShapeCasts S32x512x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  slices_S512x512_o0_0_S512x64 : S512x512.Slices ![0, 0] S512x64
  transposes_S512x64_p1_0_S64x512 : S512x64.Transposes [1, 0] S64x512
  reduces_S512x512_S512 : S512x512.Reduces [1] S512
  shapeCasts_S512_S512x1 : S512.ShapeCasts S512x1
  broadcasts_S512x1_S512x512 : S512x1.Broadcasts S512x512
  inb_S512x512_S512x64_0_0 : ∀ a, (![0, 0] : Fin 2 → Nat) a + S512x64.size a ≤ S512x512.size a
  h_S512x64 : 0 < S512x64.numel
  shapeCasts_S512x64_S512x64 : S512x64.ShapeCasts S512x64
  packedbf16_S512x512_S512x64_0_0 : (Rect.unit (s := S512x512) ![0, 0] S512x64.size inb_S512x512_S512x64_0_0).PackedRows (EltTy.packing .bf16)
  slices_S512x512_o0_64_S512x64 : S512x512.Slices ![0, 64] S512x64
  inb_S512x512_S512x64_0_64 : ∀ a, (![0, 64] : Fin 2 → Nat) a + S512x64.size a ≤ S512x512.size a
  packedbf16_S512x512_S512x64_0_64 : (Rect.unit (s := S512x512) ![0, 64] S512x64.size inb_S512x512_S512x64_0_64).PackedRows (EltTy.packing .bf16)
  slices_S512x512_o0_128_S512x64 : S512x512.Slices ![0, 128] S512x64
  inb_S512x512_S512x64_0_128 : ∀ a, (![0, 128] : Fin 2 → Nat) a + S512x64.size a ≤ S512x512.size a
  packedbf16_S512x512_S512x64_0_128 : (Rect.unit (s := S512x512) ![0, 128] S512x64.size inb_S512x512_S512x64_0_128).PackedRows (EltTy.packing .bf16)
  slices_S512x512_o0_192_S512x64 : S512x512.Slices ![0, 192] S512x64
  inb_S512x512_S512x64_0_192 : ∀ a, (![0, 192] : Fin 2 → Nat) a + S512x64.size a ≤ S512x512.size a
  packedbf16_S512x512_S512x64_0_192 : (Rect.unit (s := S512x512) ![0, 192] S512x64.size inb_S512x512_S512x64_0_192).PackedRows (EltTy.packing .bf16)
  slices_S512x512_o0_256_S512x64 : S512x512.Slices ![0, 256] S512x64
  inb_S512x512_S512x64_0_256 : ∀ a, (![0, 256] : Fin 2 → Nat) a + S512x64.size a ≤ S512x512.size a
  packedbf16_S512x512_S512x64_0_256 : (Rect.unit (s := S512x512) ![0, 256] S512x64.size inb_S512x512_S512x64_0_256).PackedRows (EltTy.packing .bf16)
  slices_S512x512_o0_320_S512x64 : S512x512.Slices ![0, 320] S512x64
  inb_S512x512_S512x64_0_320 : ∀ a, (![0, 320] : Fin 2 → Nat) a + S512x64.size a ≤ S512x512.size a
  packedbf16_S512x512_S512x64_0_320 : (Rect.unit (s := S512x512) ![0, 320] S512x64.size inb_S512x512_S512x64_0_320).PackedRows (EltTy.packing .bf16)
  slices_S512x512_o0_384_S512x64 : S512x512.Slices ![0, 384] S512x64
  inb_S512x512_S512x64_0_384 : ∀ a, (![0, 384] : Fin 2 → Nat) a + S512x64.size a ≤ S512x512.size a
  packedbf16_S512x512_S512x64_0_384 : (Rect.unit (s := S512x512) ![0, 384] S512x64.size inb_S512x512_S512x64_0_384).PackedRows (EltTy.packing .bf16)
  slices_S512x512_o0_448_S512x64 : S512x512.Slices ![0, 448] S512x64
  inb_S512x512_S512x64_0_448 : ∀ a, (![0, 448] : Fin 2 → Nat) a + S512x64.size a ≤ S512x512.size a
  packedbf16_S512x512_S512x64_0_448 : (Rect.unit (s := S512x512) ![0, 448] S512x64.size inb_S512x512_S512x64_0_448).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  shapeCasts_S512x512_S1x512x512 : S512x512.ShapeCasts S1x512x512
  shapeCasts_S32x512x512_S2x16x512x512 : S32x512x512.ShapeCasts S2x16x512x512
  dot_S512x512_S512x1536_S512x1536_1_0_0_1_n_n_wf : DotDims.WF S512x512 S512x1536 S512x1536 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S32x512x512.size a
  hwx0_4 : ∀ i : grid0.Coords, EltTy.bits .f32 = 32 ∨ (Rect.block (s := S32x512x512) S1x512x512.size (cc0_transform_4 i) (hinb0_4 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x512x512 : Shape := ⟨4, ![2, 16, 512, 512]⟩
abbrev S512x1536 : Shape := ⟨2, ![512, 1536]⟩
abbrev S512x512 : Shape := ⟨2, ![512, 512]⟩
abbrev S512 : Shape := ⟨1, ![512]⟩
abbrev S2x16x512x1536 : Shape := ⟨4, ![2, 16, 512, 1536]⟩
abbrev S2x16x512x8x64 : Shape := ⟨5, ![2, 16, 512, 8, 64]⟩
abbrev S2x16x8x512x64 : Shape := ⟨5, ![2, 16, 8, 512, 64]⟩
abbrev S2x16x8x512x512 : Shape := ⟨5, ![2, 16, 8, 512, 512]⟩
abbrev S_ : Shape := ⟨0, ![]⟩
abbrev S2x16x8x512 : Shape := ⟨4, ![2, 16, 8, 512]⟩
abbrev S2x16x8x512x1 : Shape := ⟨5, ![2, 16, 8, 512, 1]⟩
abbrev S1x1x1x512 : Shape := ⟨4, ![1, 1, 1, 512]⟩

abbrev nBuf : Space → Nat
  | .hbm => 39
  | .vmem => 0
  | .smem => 0
  | _ => 0

abbrev bufTy : (tb : Table) → Fin (tcTables nBuf tb) → BufTy
  | .hbm, ⟨0, _⟩ => ⟨S2x16x512x512, .f32⟩
  | .hbm, ⟨1, _⟩ => ⟨S512x1536, .f32⟩
  | .hbm, ⟨2, _⟩ => ⟨S512x512, .f32⟩
  | .hbm, ⟨3, _⟩ => ⟨S512, .f32⟩
  | .hbm, ⟨4, _⟩ => ⟨S2x16x512x1536, .f32⟩
  | .hbm, ⟨5, _⟩ => ⟨S2x16x512x512, .f32⟩
  | .hbm, ⟨6, _⟩ => ⟨S2x16x512x512, .f32⟩
  | .hbm, ⟨7, _⟩ => ⟨S2x16x512x512, .f32⟩
  | .hbm, ⟨8, _⟩ => ⟨S2x16x512x8x64, .f32⟩
  | .hbm, ⟨9, _⟩ => ⟨S2x16x8x512x64, .f32⟩
  | .hbm, ⟨10, _⟩ => ⟨S2x16x512x8x64, .f32⟩
  | .hbm, ⟨11, _⟩ => ⟨S2x16x8x512x64, .f32⟩
  | .hbm, ⟨12, _⟩ => ⟨S2x16x512x8x64, .f32⟩
  | .hbm, ⟨13, _⟩ => ⟨S2x16x8x512x64, .f32⟩
  | .hbm, ⟨14, _⟩ => ⟨S2x16x8x512x512, .f32⟩
  | .hbm, ⟨15, _⟩ => ⟨S_, .f32⟩
  | .hbm, ⟨16, _⟩ => ⟨S2x16x8x512x512, .f32⟩
  | .hbm, ⟨17, _⟩ => ⟨S2x16x8x512x512, .f32⟩
  | .hbm, ⟨18, _⟩ => ⟨S_, .f32⟩
  | .hbm, ⟨19, _⟩ => ⟨S2x16x8x512, .f32⟩
  | .hbm, ⟨20, _⟩ => ⟨S_, .f32⟩
  | .hbm, ⟨21, _⟩ => ⟨S2x16x8x512, .f32⟩
  | .hbm, ⟨22, _⟩ => ⟨S2x16x8x512, .f32⟩
  | .hbm, ⟨23, _⟩ => ⟨S2x16x8x512x1, .f32⟩
  | .hbm, ⟨24, _⟩ => ⟨S2x16x8x512x512, .f32⟩
  | .hbm, ⟨25, _⟩ => ⟨S2x16x8x512x512, .f32⟩
  | .hbm, ⟨26, _⟩ => ⟨S2x16x8x512x512, .f32⟩
  | .hbm, ⟨27, _⟩ => ⟨S_, .f32⟩
  | .hbm, ⟨28, _⟩ => ⟨S2x16x8x512, .f32⟩
  | .hbm, ⟨29, _⟩ => ⟨S2x16x8x512x1, .f32⟩
  | .hbm, ⟨30, _⟩ => ⟨S2x16x8x512x512, .f32⟩
  | .hbm, ⟨31, _⟩ => ⟨S2x16x8x512x512, .f32⟩
  | .hbm, ⟨32, _⟩ => ⟨S2x16x8x512x64, .f32⟩
  | .hbm, ⟨33, _⟩ => ⟨S2x16x512x8x64, .f32⟩
  | .hbm, ⟨34, _⟩ => ⟨S2x16x512x512, .f32⟩
  | .hbm, ⟨35, _⟩ => ⟨S2x16x512x512, .f32⟩
  | .hbm, ⟨36, _⟩ => ⟨S1x1x1x512, .f32⟩
  | .hbm, ⟨37, _⟩ => ⟨S2x16x512x512, .f32⟩
  | .hbm, ⟨38, _⟩ => ⟨S2x16x512x512, .f32⟩
  | _, _ => ⟨S2x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  slices_S2x16x512x1536_S2x16x512x512_0_0_0_0 : S2x16x512x1536.Slices ![0, 0, 0, 0] S2x16x512x512
  slices_S2x16x512x1536_S2x16x512x512_0_0_0_512 : S2x16x512x1536.Slices ![0, 0, 0, 512] S2x16x512x512
  slices_S2x16x512x1536_S2x16x512x512_0_0_0_1024 : S2x16x512x1536.Slices ![0, 0, 0, 1024] S2x16x512x512
  shapeCasts_S2x16x512x512_S2x16x512x8x64 : S2x16x512x512.ShapeCasts S2x16x512x8x64
  transposes_S2x16x512x8x64_S2x16x8x512x64_0_1_3_2_4 : S2x16x512x8x64.Transposes [0, 1, 3, 2, 4] S2x16x8x512x64
  bcast_S_S2x16x8x512x512 : S_.BroadcastsInDim S2x16x8x512x512 (![] : Fin 0 → Fin S2x16x8x512x512.rank)
  reducesTo_S2x16x8x512x512_S2x16x8x512_d4 : S2x16x8x512x512.ReducesTo [4] S2x16x8x512
  h_S_ : 0 < S_.numel
  bcast_S_S2x16x8x512 : S_.BroadcastsInDim S2x16x8x512 (![] : Fin 0 → Fin S2x16x8x512.rank)
  bcast_S2x16x8x512_S2x16x8x512x1_0_1_2_3 : S2x16x8x512.BroadcastsInDim S2x16x8x512x1 (![0, 1, 2, 3] : Fin 4 → Fin S2x16x8x512x1.rank)
  bcast_S2x16x8x512x1_S2x16x8x512x512_0_1_2_3_4 : S2x16x8x512x1.BroadcastsInDim S2x16x8x512x512 (![0, 1, 2, 3, 4] : Fin 5 → Fin S2x16x8x512x512.rank)
  transposes_S2x16x8x512x64_S2x16x512x8x64_0_1_3_2_4 : S2x16x8x512x64.Transposes [0, 1, 3, 2, 4] S2x16x512x8x64
  shapeCasts_S2x16x512x8x64_S2x16x512x512 : S2x16x512x8x64.ShapeCasts S2x16x512x512
  bcast_S512_S1x1x1x512_3 : S512.BroadcastsInDim S1x1x1x512 (![3] : Fin 1 → Fin S1x1x1x512.rank)
  bcast_S1x1x1x512_S2x16x512x512_0_1_2_3 : S1x1x1x512.BroadcastsInDim S2x16x512x512 (![0, 1, 2, 3] : Fin 4 → Fin S2x16x512x512.rank)
  dot_S2x16x512x512_S512x1536_S2x16x512x1536_3_0_012_1_n_n_wf : DotDims.WF S2x16x512x512 S512x1536 S2x16x512x1536 [3] [0] [0, 1, 2] [1] [] []
  dot_S2x16x8x512x64_S2x16x8x512x64_S2x16x8x512x512_4_4_3_3_012_012_wf : DotDims.WF S2x16x8x512x64 S2x16x8x512x64 S2x16x8x512x512 [4] [4] [3] [3] [0, 1, 2] [0, 1, 2]
  dot_S2x16x8x512x512_S2x16x8x512x64_S2x16x8x512x64_4_3_3_4_012_012_wf : DotDims.WF S2x16x8x512x512 S2x16x8x512x64 S2x16x8x512x64 [4] [3] [3] [4] [0, 1, 2] [0, 1, 2]
  dot_S2x16x512x512_S512x512_S2x16x512x512_3_0_012_1_n_n_wf : DotDims.WF S2x16x512x512 S512x512 S2x16x512x512 [3] [0] [0, 1, 2] [1] [] []

variable [Facts₀]

def dot_S2x16x512x512_S512x1536_S2x16x512x1536_3_0_012_1_n_n : DotDims S2x16x512x512 S512x1536 S2x16x512x1536 where
  lhsContracting := [3]
  rhsContracting := [0]
  lhsNonContracting := [0, 1, 2]
  rhsNonContracting := [1]
  lhsBatch := []
  rhsBatch := []
  wf := dot_S2x16x512x512_S512x1536_S2x16x512x1536_3_0_012_1_n_n_wf
def dot_S2x16x8x512x64_S2x16x8x512x64_S2x16x8x512x512_4_4_3_3_012_012 : DotDims S2x16x8x512x64 S2x16x8x512x64 S2x16x8x512x512 where
  lhsContracting := [4]
  rhsContracting := [4]
  lhsNonContracting := [3]
  rhsNonContracting := [3]
  lhsBatch := [0, 1, 2]
  rhsBatch := [0, 1, 2]
  wf := dot_S2x16x8x512x64_S2x16x8x512x64_S2x16x8x512x512_4_4_3_3_012_012_wf
def dot_S2x16x8x512x512_S2x16x8x512x64_S2x16x8x512x64_4_3_3_4_012_012 : DotDims S2x16x8x512x512 S2x16x8x512x64 S2x16x8x512x64 where
  lhsContracting := [4]
  rhsContracting := [3]
  lhsNonContracting := [3]
  rhsNonContracting := [4]
  lhsBatch := [0, 1, 2]
  rhsBatch := [0, 1, 2]
  wf := dot_S2x16x8x512x512_S2x16x8x512x64_S2x16x8x512x64_4_3_3_4_012_012_wf
def dot_S2x16x512x512_S512x512_S2x16x512x512_3_0_012_1_n_n : DotDims S2x16x512x512 S512x512 S2x16x512x512 where
  lhsContracting := [3]
  rhsContracting := [0]
  lhsNonContracting := [0, 1, 2]
  rhsNonContracting := [1]
  lhsBatch := []
  rhsBatch := []
  wf := dot_S2x16x512x512_S512x512_S2x16x512x512_3_0_012_1_n_n_wf

class Facts : Prop extends Facts₀ where

variable [Facts]
-- ==== Proof.AttentionSpec.lean ====
/-
  Multi-head self-attention of one 512 × 512 slab, index by index on the extended reals.

  A slab `X` (512 tokens of 512 features) is projected by `W` (512 × 1536) to queries, keys and values, eight heads of
  64 features each: head `h` reads the queries in columns `64 h + d`, the keys in columns `512 + 64 h + d` and the values in
  columns `1024 + 64 h + d` of the projection. A head scores every query row against every key row (the dot product
  over the 64 features, times the scale), takes the softmax of each row of scores (shifted by the row's maximum) and
  sums the value rows with those weights. The eight heads' results side by side (column `64 h + d` from head `h`) are
  projected by `Wo` (512 × 512) and the bias `bo` is added.

  The scale and the starting value of the maximum are kept as the f32 words both programs print (one eighth and
  minus infinity); nothing here evaluates them.
-/
import Idealize.ShloMosaic.PureOps.Ideal
import Idealize.ShloMosaic.Lib.ValueIdx

noncomputable section

open scoped BigOperators

namespace Cert.Attention

open Idealize.ShloMosaic

/-- The scale of the scores: the f32 word of one eighth, read at the extended reals. -/
def scale : EReal := Ideal.ofBits .f32 0x3E000000#32

/-- The value a row's maximum starts from: the f32 word of minus infinity. -/
def negInf : EReal := Ideal.ofBits .f32 0xFF800000#32

/-- The score of query row `r` against key row `m`: their dot product over the 64 features, scaled. -/
def score (Q K : Fin 512 → Fin 64 → EReal) (r m : Fin 512) : EReal :=
  (∑ d : Fin 64, Q r d * K m d) * scale

/-- The maximum of row `r` of the scores. -/
def rowMax (S : Fin 512 → Fin 512 → EReal) (r : Fin 512) : EReal :=
  (Finset.univ : Finset (Fin 512)).fold max negInf (S r)

/-- The exponential of a score shifted by its row's maximum. -/
def pexp (S : Fin 512 → Fin 512 → EReal) (r m : Fin 512) : EReal :=
  Ideal.exp (S r m - rowMax S r)

/-- The softmax weight of key row `m` for query row `r`. -/
def prob (S : Fin 512 → Fin 512 → EReal) (r m : Fin 512) : EReal :=
  Ideal.div (pexp S r m) (∑ m' : Fin 512, pexp S r m')

/-- One head: the value rows summed with the softmax weights of the scores. -/
def head (Q K V : Fin 512 → Fin 64 → EReal) (r : Fin 512) (j : Fin 64) : EReal :=
  ∑ m : Fin 512, prob (score Q K) r m * V m j

/-- The projection of the slab: row `r`, column `e`. -/
def proj (X : Fin 512 → Fin 512 → EReal) (W : Fin 512 → Fin 1536 → EReal) (r : Fin 512) (e : Fin 1536) : EReal :=
  ∑ d : Fin 512, X r d * W d e

/-- Column `512 s + 64 h + d` of the projection: `s` = 0 the queries, 1 the keys, 2 the values. -/
def col (s : Fin 3) (h : Fin 8) (d : Fin 64) : Fin 1536 :=
  ⟨512 * s.val + 64 * h.val + d.val, by have := s.isLt; have := h.isLt; have := d.isLt; omega⟩

/-- Head `h` of the slab. -/
def headOf (X : Fin 512 → Fin 512 → EReal) (W : Fin 512 → Fin 1536 → EReal) (h : Fin 8) : Fin 512 → Fin 64 → EReal :=
  head (fun r d => proj X W r (col 0 h d)) (fun m d => proj X W m (col 1 h d)) (fun m d => proj X W m (col 2 h d))

/-- The heads side by side: column `e` is feature `e % 64` of head `e / 64`. -/
def concat (X : Fin 512 → Fin 512 → EReal) (W : Fin 512 → Fin 1536 → EReal) (r : Fin 512) (e : Fin 512) : EReal :=
  headOf X W ⟨e.val / 64, by have := e.isLt; omega⟩ r ⟨e.val % 64, Nat.mod_lt _ (by norm_num)⟩

/-- The attention layer of one slab: the concatenated heads projected by `Wo`, plus the bias. -/
def attn (X : Fin 512 → Fin 512 → EReal) (W : Fin 512 → Fin 1536 → EReal) (Wo : Fin 512 → Fin 512 → EReal)
    (bo : Fin 512 → EReal) (r c : Fin 512) : EReal :=
  (∑ e : Fin 512, concat X W r e * Wo e c) + bo c

end Cert.Attention

end
-- ==== Proof.AttentionArr.lean ====
/-
  The attention layer over the whole batch: entry `(b, p, r, c)` of the result is the attention layer of slab `(b, p)` of
  the input — the 512 × 512 matrix of its last two axes — at row `r` and column `c`; the three weight arrays are shared
  by all slabs.
-/
import proofs.«115339_j7516192768567_2_alg».proof.Proof.AttentionSpec

noncomputable section

namespace Cert.Attention

open Idealize.ShloMosaic Idealize.ShloMosaic.ValueIdx

/-- The whole result array as one function of the four argument arrays. -/
def attnArr (a0 : (⟨4, ![2, 16, 512, 512]⟩ : Shape).Idx → EReal) (a1 : (⟨2, ![512, 1536]⟩ : Shape).Idx → EReal)
    (a2 : (⟨2, ![512, 512]⟩ : Shape).Idx → EReal) (a3 : (⟨1, ![512]⟩ : Shape).Idx → EReal) :
    (⟨4, ![2, 16, 512, 512]⟩ : Shape).Idx → EReal := fun i =>
  attn (fun a d => a0 (ix4 (⟨(i 0).val, (i 0).isLt⟩ : Fin 2) (⟨(i 1).val, (i 1).isLt⟩ : Fin 16) a d)) (fun d e => a1 (ix2 d e))
    (fun e c => a2 (ix2 e c)) (fun c => a3 (ix1 c)) (⟨(i 2).val, (i 2).isLt⟩ : Fin 512) (⟨(i 3).val, (i 3).isLt⟩ : Fin 512)

/-- At an index given by its coordinates. -/
theorem attnArr_apply (a0 : (⟨4, ![2, 16, 512, 512]⟩ : Shape).Idx → EReal) (a1 : (⟨2, ![512, 1536]⟩ : Shape).Idx → EReal)
    (a2 : (⟨2, ![512, 512]⟩ : Shape).Idx → EReal) (a3 : (⟨1, ![512]⟩ : Shape).Idx → EReal)
    (b : Fin 2) (p : Fin 16) (r c : Fin 512) :
    attnArr a0 a1 a2 a3 (ix4 b p r c)
      = attn (fun a d => a0 (ix4 b p a d)) (fun d e => a1 (ix2 d e)) (fun e c' => a2 (ix2 e c')) (fun c' => a3 (ix1 c')) r c := rfl

end Cert.Attention

end
-- ==== Proof.RefValue.lean ====
/-
  The reference program read at one index is the attention layer of its slab.

  Every stage of the reference is read at an index built from its coordinates and identified with the matching
  definition of the specification: the projection, its three column blocks cut into heads, the scaled scores, each
  row's maximum, the shifted exponentials and their row sums, the softmax weights, the weighted sum of the values,
  the heads laid side by side, the output projection and the bias. Only index bookkeeping happens here: both sides
  are the same expressions over the extended reals.
-/
import proofs.«115339_j7516192768567_2_alg».proof.Proof.Gen.ReferenceIdeal.Read
import proofs.«115339_j7516192768567_2_alg».proof.Proof.AttentionSpec
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read

/-- The inputs' types, abbreviated. -/
abbrev In0 := (⟨S2x16x512x512, .f32⟩ : BufTy).Contents (Elt Ideal)
abbrev In1 := (⟨S512x1536, .f32⟩ : BufTy).Contents (Elt Ideal)
abbrev In2 := (⟨S512x512, .f32⟩ : BufTy).Contents (Elt Ideal)
abbrev In3 := (⟨S512, .f32⟩ : BufTy).Contents (Elt Ideal)

/-- Slab `(b, p)` of the input, as a matrix. -/
abbrev slab (x0 : In0) (b : Fin 2) (p : Fin 16) : Fin 512 → Fin 512 → EReal := fun a d => x0 (ix4 b p a d)
/-- The projection weights as a matrix. -/
abbrev wmat (x1 : In1) : Fin 512 → Fin 1536 → EReal := fun d e => x1 (ix2 d e)

/-! ## The projection -/

/-- The first product at `(b, p, r, e)` is row `r`, column `e` of the slab's projection. -/
theorem v0_apply (x0 : In0) (x1 : In1) (b : Fin 2) (p : Fin 16) (r : Fin 512) (e : Fin 1536) :
    val_main_v0 (F := Ideal) x0 x1 (ix4 b p r e) = Cert.Attention.proj (slab x0 b p) (wmat x1) r e := by
  rw [val_main_v0_apply]
  unfold Cert.Attention.proj
  refine Finset.sum_congr rfl fun k _ => ?_
  have el : lidx_main_v0 (ix4 b p r e) k = ix4 b p r k := funext fun a => by
    match a with
    | ⟨0, _⟩ => rfl
    | ⟨1, _⟩ => rfl
    | ⟨2, _⟩ => rfl
    | ⟨3, _⟩ => rfl
  have er : ridx_main_v0 (ix4 b p r e) k = ix2 k e := funext fun a => by
    match a with
    | ⟨0, _⟩ => rfl
    | ⟨1, _⟩ => rfl
  rw [el, er]

/-! ## The heads' columns -/

/-- Column `64 h + d` of a 512-column block. -/
abbrev c64 (h : Fin 8) (d : Fin 64) : Fin 512 := ⟨64 * h.val + d.val, by have := h.isLt; have := d.isLt; omega⟩

/-- The transposed index of `(b, p, h, r, d)` is `(b, p, r, h, d)`. -/
theorem idx5_ix (b : Fin 2) (p : Fin 16) (h : Fin 8) (r : Fin 512) (d : Fin 64) :
    idx_main_v5 (ix5 b p h r d) = ix5 b p r h d := funext fun a => by
  match a with
  | ⟨0, _⟩ => rfl
  | ⟨1, _⟩ => rfl
  | ⟨2, _⟩ => rfl
  | ⟨3, _⟩ => rfl
  | ⟨4, _⟩ => rfl

/-- The index `(b, p, r, h, d)` of the five-axis array is `(b, p, r, 64 h + d)` of the four-axis one. -/
theorem idx4_ix (b : Fin 2) (p : Fin 16) (r : Fin 512) (h : Fin 8) (d : Fin 64) :
    idx_main_v4 (ix5 b p r h d) = ix4 b p r (c64 h d) := funext fun a => Fin.ext (by
  have hb := b.isLt; have hp := p.isLt; have hr := r.isLt; have hh := h.isLt; have hd := d.isLt
  match a with
  | ⟨0, _⟩ => show ((((b.val * 16 + p.val) * 512 + r.val) * 8 + h.val) * 64 + d.val) / 4194304 = b.val; omega
  | ⟨1, _⟩ => show ((((b.val * 16 + p.val) * 512 + r.val) * 8 + h.val) * 64 + d.val) / 262144 % 16 = p.val; omega
  | ⟨2, _⟩ => show ((((b.val * 16 + p.val) * 512 + r.val) * 8 + h.val) * 64 + d.val) / 512 % 512 = r.val; omega
  | ⟨3, _⟩ => show ((((b.val * 16 + p.val) * 512 + r.val) * 8 + h.val) * 64 + d.val) % 512 = 64 * h.val + d.val; omega)

/-- The first column block read at `(b, p, r, 64 h + d)` is the projection's column `64 h + d`. -/
theorem idx1_ix (b : Fin 2) (p : Fin 16) (r : Fin 512) (h : Fin 8) (d : Fin 64) :
    idx_main_v1 (ix4 b p r (c64 h d)) = ix4 b p r (Cert.Attention.col 0 h d) := funext fun a => Fin.ext (by
  match a with
  | ⟨0, _⟩ => rfl
  | ⟨1, _⟩ => rfl
  | ⟨2, _⟩ => rfl
  | ⟨3, _⟩ => show 64 * h.val + d.val = 512 * (0 : Fin 3).val + 64 * h.val + d.val; simp)

/-- The second column block read at `(b, p, r, 64 h + d)` is the projection's column `512 + 64 h + d`. -/
theorem idx2_ix (b : Fin 2) (p : Fin 16) (r : Fin 512) (h : Fin 8) (d : Fin 64) :
    idx_main_v2 (ix4 b p r (c64 h d)) = ix4 b p r (Cert.Attention.col 1 h d) := funext fun a => Fin.ext (by
  match a with
  | ⟨0, _⟩ => rfl
  | ⟨1, _⟩ => rfl
  | ⟨2, _⟩ => rfl
  | ⟨3, _⟩ => show 512 + (64 * h.val + d.val) = 512 * (1 : Fin 3).val + 64 * h.val + d.val; simp; omega)

/-- The third column block read at `(b, p, r, 64 h + d)` is the projection's column `1024 + 64 h + d`. -/
theorem idx3_ix (b : Fin 2) (p : Fin 16) (r : Fin 512) (h : Fin 8) (d : Fin 64) :
    idx_main_v3 (ix4 b p r (c64 h d)) = ix4 b p r (Cert.Attention.col 2 h d) := funext fun a => Fin.ext (by
  match a with
  | ⟨0, _⟩ => rfl
  | ⟨1, _⟩ => rfl
  | ⟨2, _⟩ => rfl
  | ⟨3, _⟩ => show 1024 + (64 * h.val + d.val) = 512 * (2 : Fin 3).val + 64 * h.val + d.val; simp; omega)

/-- The queries of head `h`: row `r`, feature `d`. -/
theorem v5_apply (x0 : In0) (x1 : In1) (b : Fin 2) (p : Fin 16) (h : Fin 8) (r : Fin 512) (d : Fin 64) :
    val_main_v5 (F := Ideal) x0 x1 (ix5 b p h r d)
      = Cert.Attention.proj (slab x0 b p) (wmat x1) r (Cert.Attention.col 0 h d) := by
  rw [val_main_v5_apply, idx5_ix, val_main_v4_apply, idx4_ix, val_main_v1_apply, idx1_ix, v0_apply]

/-- The keys of head `h`: row `r`, feature `d`. -/
theorem v7_apply (x0 : In0) (x1 : In1) (b : Fin 2) (p : Fin 16) (h : Fin 8) (r : Fin 512) (d : Fin 64) :
    val_main_v7 (F := Ideal) x0 x1 (ix5 b p h r d)
      = Cert.Attention.proj (slab x0 b p) (wmat x1) r (Cert.Attention.col 1 h d) := by
  rw [val_main_v7_apply, show idx_main_v7 (ix5 b p h r d) = ix5 b p r h d from idx5_ix b p h r d, val_main_v6_apply,
    show idx_main_v6 (ix5 b p r h d) = ix4 b p r (c64 h d) from idx4_ix b p r h d, val_main_v2_apply, idx2_ix, v0_apply]

/-- The values of head `h`: row `r`, feature `d`. -/
theorem v9_apply (x0 : In0) (x1 : In1) (b : Fin 2) (p : Fin 16) (h : Fin 8) (r : Fin 512) (d : Fin 64) :
    val_main_v9 (F := Ideal) x0 x1 (ix5 b p h r d)
      = Cert.Attention.proj (slab x0 b p) (wmat x1) r (Cert.Attention.col 2 h d) := by
  rw [val_main_v9_apply, show idx_main_v9 (ix5 b p h r d) = ix5 b p r h d from idx5_ix b p h r d, val_main_v8_apply,
    show idx_main_v8 (ix5 b p r h d) = ix4 b p r (c64 h d) from idx4_ix b p r h d, val_main_v3_apply, idx3_ix, v0_apply]

/-! ## The scores -/

/-- The queries, keys and values of head `h` of slab `(b, p)`. -/
abbrev qOf (x0 : In0) (x1 : In1) (b : Fin 2) (p : Fin 16) (h : Fin 8) : Fin 512 → Fin 64 → EReal :=
  fun r d => Cert.Attention.proj (slab x0 b p) (wmat x1) r (Cert.Attention.col 0 h d)
abbrev kOf (x0 : In0) (x1 : In1) (b : Fin 2) (p : Fin 16) (h : Fin 8) : Fin 512 → Fin 64 → EReal :=
  fun m d => Cert.Attention.proj (slab x0 b p) (wmat x1) m (Cert.Attention.col 1 h d)
abbrev vOf (x0 : In0) (x1 : In1) (b : Fin 2) (p : Fin 16) (h : Fin 8) : Fin 512 → Fin 64 → EReal :=
  fun m d => Cert.Attention.proj (slab x0 b p) (wmat x1) m (Cert.Attention.col 2 h d)
/-- The scores of head `h` of slab `(b, p)`. -/
abbrev sOf (x0 : In0) (x1 : In1) (b : Fin 2) (p : Fin 16) (h : Fin 8) : Fin 512 → Fin 512 → EReal :=
  Cert.Attention.score (qOf x0 x1 b p h) (kOf x0 x1 b p h)

/-- The scaled product of queries and keys at `(b, p, h, r, m)` is the score of row `r` against row `m`. -/
theorem v12_apply (x0 : In0) (x1 : In1) (b : Fin 2) (p : Fin 16) (h : Fin 8) (r m : Fin 512) :
    val_main_v12 (F := Ideal) x0 x1 (ix5 b p h r m) = sOf x0 x1 b p h r m := by
  rw [val_main_v12_apply, val_main_v10_apply, val_main_v11_apply, val_main_cst_apply, Ideal.mulf_def, Ideal.ofBits_def]
  unfold sOf Cert.Attention.score Cert.Attention.scale
  refine congrArg (· * _) (Finset.sum_congr rfl fun k _ => ?_)
  have el : lidx_main_v10 (ix5 b p h r m) k = ix5 b p h r k := funext fun a => by
    match a with
    | ⟨0, _⟩ => rfl
    | ⟨1, _⟩ => rfl
    | ⟨2, _⟩ => rfl
    | ⟨3, _⟩ => rfl
    | ⟨4, _⟩ => rfl
  have er : ridx_main_v10 (ix5 b p h r m) k = ix5 b p h m k := funext fun a => by
    match a with
    | ⟨0, _⟩ => rfl
    | ⟨1, _⟩ => rfl
    | ⟨2, _⟩ => rfl
    | ⟨3, _⟩ => rfl
    | ⟨4, _⟩ => rfl
  rw [el, er, v5_apply, v7_apply]

/-! ## The rows' maxima -/

/-- The reduced index `(b, p, h, r)` with coordinate `k` put back on the last axis is `(b, p, h, r, k)`. -/
theorem lift_ix (hR : S2x16x8x512x512.Reduces [4] S2x16x8x512) (b : Fin 2) (p : Fin 16) (h : Fin 8) (r : Fin 512)
    (k : Fin (S2x16x8x512x512.size 4)) :
    hR.lift (ix4 b p h r) k = ix5 b p h r (⟨k.val, k.isLt⟩ : Fin 512) := by
  funext c; apply Fin.ext
  fin_cases c <;> rfl

/-- The maximum over the last axis at `(b, p, h, r)` is the maximum of row `r` of the scores. -/
theorem v13_apply (x0 : In0) (x1 : In1) (b : Fin 2) (p : Fin 16) (h : Fin 8) (r : Fin 512) :
    val_main_v13 (F := Ideal) x0 x1 (ix4 b p h r) = Cert.Attention.rowMax (sOf x0 x1 b p h) r := by
  have hR : S2x16x8x512x512.Reduces [4] S2x16x8x512 := by decide
  unfold val_main_v13
  refine (Host.reduce_eq_fold_single (α := Ideal .f32) FloatOps.maximumf (val_main_v12 (F := Ideal) x0 x1)
    (val_main_cst_0 (F := Ideal)) Gen.reducesTo_S2x16x8x512x512_S2x16x8x512_d4 hR Gen.h_S_ (ix4 b p h r)).trans ?_
  unfold Cert.Attention.rowMax Cert.Attention.negInf
  have hf : (val_main_v12 (F := Ideal) x0 x1 ∘ hR.lift (ix4 b p h r)) = fun k : Fin 512 => sOf x0 x1 b p h r k :=
    funext fun k => (congrArg (val_main_v12 (F := Ideal) x0 x1) (lift_ix hR b p h r k)).trans (v12_apply x0 x1 b p h r _)
  exact congrArg (fun f => Finset.fold max (Ideal.ofBits .f32 0xFF800000#32) f (Finset.univ : Finset (Fin 512))) hf

/-- The maximum once more with minus infinity changes nothing. -/
theorem v15_apply (x0 : In0) (x1 : In1) (b : Fin 2) (p : Fin 16) (h : Fin 8) (r : Fin 512) :
    val_main_v15 (F := Ideal) x0 x1 (ix4 b p h r) = Cert.Attention.rowMax (sOf x0 x1 b p h) r := by
  rw [val_main_v15_apply, val_main_v14_apply, val_main_cst_1_apply, v13_apply, Ideal.maximumf_def, Ideal.ofBits_def]
  unfold Cert.Attention.rowMax Cert.Attention.negInf
  exact max_eq_right ((Finset.le_fold_max _).mpr (Or.inl le_rfl))

/-! ## The softmax weights -/

/-- The spread row maximum at `(b, p, h, r, m)` is row `r`'s maximum. -/
theorem v17_apply (x0 : In0) (x1 : In1) (b : Fin 2) (p : Fin 16) (h : Fin 8) (r m : Fin 512) :
    val_main_v17 (F := Ideal) x0 x1 (ix5 b p h r m) = Cert.Attention.rowMax (sOf x0 x1 b p h) r := by
  rw [val_main_v17_apply, val_main_v16_apply]
  have e : idx_main_v16 (idx_main_v17 (ix5 b p h r m)) = ix4 b p h r := funext fun a => by
    match a with
    | ⟨0, _⟩ => rfl
    | ⟨1, _⟩ => rfl
    | ⟨2, _⟩ => rfl
    | ⟨3, _⟩ => rfl
  rw [e, v15_apply]

/-- The exponential of the shifted score. -/
theorem v19_apply (x0 : In0) (x1 : In1) (b : Fin 2) (p : Fin 16) (h : Fin 8) (r m : Fin 512) :
    val_main_v19 (F := Ideal) x0 x1 (ix5 b p h r m) = Cert.Attention.pexp (sOf x0 x1 b p h) r m := by
  rw [val_main_v19_apply, val_main_v18_apply, v12_apply, v17_apply, Ideal.subf_def, Ideal.hostUnary_exp_def]
  rfl

/-- The row sum of the exponentials. -/
theorem v20_apply (x0 : In0) (x1 : In1) (b : Fin 2) (p : Fin 16) (h : Fin 8) (r : Fin 512) :
    val_main_v20 (F := Ideal) x0 x1 (ix4 b p h r) = ∑ m' : Fin 512, Cert.Attention.pexp (sOf x0 x1 b p h) r m' := by
  rw [val_main_v20_apply, val_main_cst_2_apply, Ideal.ofBits_def, Ideal.ofBits_zero_f32, zero_add]
  refine Finset.sum_congr rfl fun k _ => ?_
  have e : idx_main_v20 (ix4 b p h r) k = ix5 b p h r k := funext fun a => by
    match a with
    | ⟨0, _⟩ => rfl
    | ⟨1, _⟩ => rfl
    | ⟨2, _⟩ => rfl
    | ⟨3, _⟩ => rfl
    | ⟨4, _⟩ => rfl
  rw [e, v19_apply]

/-- The spread row sum at `(b, p, h, r, m)` is row `r`'s sum. -/
theorem v22_apply (x0 : In0) (x1 : In1) (b : Fin 2) (p : Fin 16) (h : Fin 8) (r m : Fin 512) :
    val_main_v22 (F := Ideal) x0 x1 (ix5 b p h r m) = ∑ m' : Fin 512, Cert.Attention.pexp (sOf x0 x1 b p h) r m' := by
  rw [val_main_v22_apply, val_main_v21_apply]
  have e : idx_main_v21 (idx_main_v22 (ix5 b p h r m)) = ix4 b p h r := funext fun a => by
    match a with
    | ⟨0, _⟩ => rfl
    | ⟨1, _⟩ => rfl
    | ⟨2, _⟩ => rfl
    | ⟨3, _⟩ => rfl
  rw [e, v20_apply]

/-- The softmax weight of key row `m` for query row `r`. -/
theorem v23_apply (x0 : In0) (x1 : In1) (b : Fin 2) (p : Fin 16) (h : Fin 8) (r m : Fin 512) :
    val_main_v23 (F := Ideal) x0 x1 (ix5 b p h r m) = Cert.Attention.prob (sOf x0 x1 b p h) r m := by
  rw [val_main_v23_apply, v19_apply, v22_apply, Ideal.hostDivf_def]
  rfl

/-! ## The heads, side by side, projected -/

/-- The weighted sum of the values at `(b, p, h, r, j)` is head `h` of the slab: row `r`, feature `j`. -/
theorem v24_apply (x0 : In0) (x1 : In1) (b : Fin 2) (p : Fin 16) (h : Fin 8) (r : Fin 512) (j : Fin 64) :
    val_main_v24 (F := Ideal) x0 x1 (ix5 b p h r j) = Cert.Attention.headOf (slab x0 b p) (wmat x1) h r j := by
  rw [val_main_v24_apply]
  unfold Cert.Attention.headOf Cert.Attention.head
  refine Finset.sum_congr rfl fun k _ => ?_
  have el : lidx_main_v24 (ix5 b p h r j) k = ix5 b p h r k := funext fun a => by
    match a with
    | ⟨0, _⟩ => rfl
    | ⟨1, _⟩ => rfl
    | ⟨2, _⟩ => rfl
    | ⟨3, _⟩ => rfl
    | ⟨4, _⟩ => rfl
  have er : ridx_main_v24 (ix5 b p h r j) k = ix5 b p h k j := funext fun a => by
    match a with
    | ⟨0, _⟩ => rfl
    | ⟨1, _⟩ => rfl
    | ⟨2, _⟩ => rfl
    | ⟨3, _⟩ => rfl
    | ⟨4, _⟩ => rfl
  rw [el, er, v23_apply, v9_apply]

/-- The index `(b, p, r, e)` of the four-axis array is `(b, p, r, e / 64, e % 64)` of the five-axis one. -/
theorem idx26_ix (b : Fin 2) (p : Fin 16) (r e : Fin 512) :
    idx_main_v26 (ix4 b p r e)
      = ix5 b p r (⟨e.val / 64, by have := e.isLt; omega⟩ : Fin 8) (⟨e.val % 64, Nat.mod_lt _ (by norm_num)⟩ : Fin 64) :=
  funext fun a => Fin.ext (by
    have hb := b.isLt; have hp := p.isLt; have hr := r.isLt; have he := e.isLt
    match a with
    | ⟨0, _⟩ => show (((b.val * 16 + p.val) * 512 + r.val) * 512 + e.val) / 4194304 = b.val; omega
    | ⟨1, _⟩ => show (((b.val * 16 + p.val) * 512 + r.val) * 512 + e.val) / 262144 % 16 = p.val; omega
    | ⟨2, _⟩ => show (((b.val * 16 + p.val) * 512 + r.val) * 512 + e.val) / 512 % 512 = r.val; omega
    | ⟨3, _⟩ => show (((b.val * 16 + p.val) * 512 + r.val) * 512 + e.val) / 64 % 8 = e.val / 64; omega
    | ⟨4, _⟩ => show (((b.val * 16 + p.val) * 512 + r.val) * 512 + e.val) % 64 = e.val % 64; omega)

/-- The heads laid side by side at `(b, p, r, e)`: feature `e % 64` of head `e / 64`. -/
theorem v26_apply (x0 : In0) (x1 : In1) (b : Fin 2) (p : Fin 16) (r e : Fin 512) :
    val_main_v26 (F := Ideal) x0 x1 (ix4 b p r e) = Cert.Attention.concat (slab x0 b p) (wmat x1) r e := by
  rw [val_main_v26_apply, idx26_ix, val_main_v25_apply]
  have e5 : idx_main_v25 (ix5 b p r (⟨e.val / 64, by have := e.isLt; omega⟩ : Fin 8) (⟨e.val % 64, Nat.mod_lt _ (by norm_num)⟩ : Fin 64))
      = ix5 b p (⟨e.val / 64, by have := e.isLt; omega⟩ : Fin 8) r (⟨e.val % 64, Nat.mod_lt _ (by norm_num)⟩ : Fin 64) :=
    funext fun a => by
      match a with
      | ⟨0, _⟩ => rfl
      | ⟨1, _⟩ => rfl
      | ⟨2, _⟩ => rfl
      | ⟨3, _⟩ => rfl
      | ⟨4, _⟩ => rfl
  rw [e5, v24_apply]
  rfl

/-- The output projection at `(b, p, r, c)`. -/
theorem v27_apply (x0 : In0) (x1 : In1) (x2 : In2) (b : Fin 2) (p : Fin 16) (r c : Fin 512) :
    val_main_v27 (F := Ideal) x0 x1 x2 (ix4 b p r c)
      = ∑ e : Fin 512, Cert.Attention.concat (slab x0 b p) (wmat x1) r e * x2 (ix2 e c) := by
  rw [val_main_v27_apply]
  refine Finset.sum_congr rfl fun k _ => ?_
  have el : lidx_main_v27 (ix4 b p r c) k = ix4 b p r k := funext fun a => by
    match a with
    | ⟨0, _⟩ => rfl
    | ⟨1, _⟩ => rfl
    | ⟨2, _⟩ => rfl
    | ⟨3, _⟩ => rfl
  have er : ridx_main_v27 (ix4 b p r c) k = ix2 k c := funext fun a => by
    match a with
    | ⟨0, _⟩ => rfl
    | ⟨1, _⟩ => rfl
  rw [el, er, v26_apply]

/-- The spread bias at `(b, p, r, c)` is entry `c` of the bias. -/
theorem v29_apply (x3 : In3) (b : Fin 2) (p : Fin 16) (r c : Fin 512) :
    val_main_v29 (F := Ideal) x3 (ix4 b p r c) = x3 (ix1 c) := by
  rw [val_main_v29_apply, val_main_v28_apply]
  exact congrArg x3 (funext fun a => by
    match a with
    | ⟨0, _⟩ => rfl)

/-! ## The reference is the specification -/

/-- THE REFERENCE READ AT `(b, p, r, c)`: the attention layer of slab `(b, p)`, row `r`, column `c`. -/
theorem ref_apply (x0 : (⟨S2x16x512x512, .f32⟩ : BufTy).Contents (Elt Ideal)) (x1 : (⟨S512x1536, .f32⟩ : BufTy).Contents (Elt Ideal))
    (x2 : (⟨S512x512, .f32⟩ : BufTy).Contents (Elt Ideal)) (x3 : (⟨S512, .f32⟩ : BufTy).Contents (Elt Ideal))
    (b : Fin 2) (p : Fin 16) (r c : Fin 512) :
    val_main_v30 (F := Ideal) x0 x1 x2 x3 (ix4 b p r c)
      = Cert.Attention.attn (fun a d => x0 (ix4 b p a d)) (fun d e => x1 (ix2 d e)) (fun e c' => x2 (ix2 e c')) (fun c' => x3 (ix1 c')) r c := by
  rw [val_main_v30_apply, v27_apply, v29_apply, Ideal.addf_def]
  rfl

end Cert.ReferenceIdeal.RefValue

end
-- ==== Proof.KernelHead.lean ====
/-
  The kernel body's arithmetic, gathered head by head.

  The body projects its slab once, cuts the projection into queries, keys and values, and treats the eight heads
  alike: the 64 columns of each of the three at the head's offset go through one chain of vector operations — the
  scores of the queries against the transposed keys, scaled; each row's maximum; the exponentials of the shifted scores;
  each row's sum; the quotient; the product with the values. `headVec` is that chain once, as a function of the three
  64-column pieces, cut where the body's text is cut: the scores, their row maxima, and the rest.
-/
import proofs.«115339_j7516192768567_2_alg».proof.Proof.Gen.KernelIdeal.Skeleton

set_option synthInstance.maxSize 4096

noncomputable section

namespace Cert.KernelIdeal.Head

open Cert.KernelIdeal Cert.KernelIdeal.Gen Idealize.ShloMosaic Idealize.SL.Sem

variable {F : FTy → Type} [FloatOps F]

/-- The scaled scores of the query rows against the key rows. -/
def scoresVec (q k : FVec F S512x64 .bf16) : FVec F S512x512 .f32 :=
  mulf (matmul dot_S512x64_S64x512_S512x512_1_0_0_1_n_n none q (transpose S64x512 [1, 0] k transposes_S512x64_p1_0_S64x512)
      (constant S512x512 .f32 0x00000000#32))
    (broadcast S512x512 (Scalar.ofBits .f32 0x3E000000#32))

/-- Each row's maximum, spread back over the row. -/
def rowMaxVec (sc : FVec F S512x512 .f32) : FVec F S512x512 .f32 :=
  broadcastTo S512x512
    (shapeCast S512x1 (multiReduction .maximumf [1] S512 sc 0xFF800000#32 reduces_S512x512_S512 (.inl rfl) rfl) shapeCasts_S512_S512x1)
    broadcasts_S512x1_S512x512

/-- From the scores and their spread row maxima to the head's result: softmax weights times the values. -/
def weighVec (v : FVec F S512x64 .bf16) (sc mx : FVec F S512x512 .f32) : FVec F S512x64 .bf16 :=
  have e : FVec F S512x512 .f32 := exp (subf sc mx)
  have l : FVec F S512x512 .f32 := broadcastTo S512x512
    (shapeCast S512x1 (multiReduction .add [1] S512 e 0x00000000#32 reduces_S512x512_S512 (.inl rfl) rfl) shapeCasts_S512_S512x1)
    broadcasts_S512x1_S512x512
  have p : FVec F S512x512 .bf16 := truncf .bf16 (divf e l) bitsLt_bf16_f32
  shapeCast S512x64
    (truncf .bf16 (matmul dot_S512x512_S512x64_S512x64_1_0_0_1_n_n none p v (constant S512x64 .f32 0x00000000#32)) bitsLt_bf16_f32)
    shapeCasts_S512x64_S512x64

/-- One head, from its 64 columns of queries, keys and values. -/
def headVec (q k v : FVec F S512x64 .bf16) : FVec F S512x64 .bf16 :=
  weighVec v (scoresVec q k) (rowMaxVec (scoresVec q k))

end Cert.KernelIdeal.Head

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.LibColumns.lean ====
/-
  Column forms of three layout operations, read at an index of literal coordinates.

  A sum over the lanes of an `a × b` array keeps one entry per row; kernels then give that column vector a unit second
  axis (`[a] → [a, 1]`) and spread it back over the lanes (`[a, 1] → [a, b]`). Read at an index:

  * `shapeCast_a_a1_apply`: the cast of `x : [a]` to `[a, 1]` at `(r, u)` is `x r`, whatever the unit coordinate `u`;
  * `broadcastTo_a1_ab_apply`: the broadcast of `v : [a, 1]` to `[a, b]` at `(r, c)` is `v (r, 0)`;
  * `shapeCast_a1_1a_apply`: the cast of a column `x : [a, 1]` to a row `[1, a]` at `(u, c)` is `x (c, 0)`;
  * `lift_rows`: over a row index `r`, the source index with lane `k` put back is `(r, k)`;
  * `multiReduction_add_rows`: at the extended reals the lane sum of `x : [a, b]` at row `r` is `∑ k, x (r, k)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.Columns

open Idealize.ShloMosaic Idealize.ShloMosaic.ValueIdx

variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` cast to a row `[1, a]` reads, at `(u, c)`, the operand at `(c, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (c : Fin a) : shapeCast ⟨2, ![1, a]⟩ x h (ix2 u c) = x (ix2 c (0 : Fin 1)) :=
  shapeCast_apply x h _ _ (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `[a, 1]` array broadcast to `[a, b]` reads, at `(r, c)`, the operand's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the row index `r`, the source index whose lane coordinate is `k` is `(r, k)`. -/
theorem lift_rows {a b : ℕ} (h : (⟨2, ![a, b]⟩ : Shape).Reduces [(1 : Fin 2)] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lanes of an `a × b` array, at the extended reals and at row `r`, is `∑ k, x (r, k)`. The
    accumulator fact is taken in the form a printed program carries it. -/
theorem multiReduction_add_rows {a b : ℕ} {φ : FTy} (x : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_rows h r k)

end Cert.Proof.Columns

end
-- ==== Proof.LibRowMax.lean ====
/-
  A row's maximum read at an index.

  A maximum over the lanes of an `a × b` array keeps one entry per row: at the extended reals the entry of row `r` is
  the fold of `max`, from the value the accumulator's word denotes, over the `b` entries of that row — the companion,
  for `max`, of a lane sum read as a sum over the row. The proof arguments are variables, so the statement meets a
  printed reduction whatever spelling its accumulator fact has.
-/
import Idealize.ShloMosaic.PureOps.Ideal
import Idealize.ShloMosaic.PureOps.Ideal.Laws
import Idealize.ShloMosaic.Lib.ValueIdx

noncomputable section

namespace Cert.Proof.RowMax

open Idealize.ShloMosaic Idealize.ShloMosaic.ValueIdx

/-- Over the row index `r`, the source index whose lane coordinate is `k` is `(r, k)`. -/
theorem lift_rows {a b : ℕ} (h : (⟨2, ![a, b]⟩ : Shape).Reduces [(1 : Fin 2)] ⟨1, ![a]⟩) (r : Fin a) (k : Fin b) :
    h.lift (ix1 r) k = ix2 r k := by
  funext c
  refine Fin.ext ?_
  match c with
  | ⟨0, _⟩ => rfl
  | ⟨1, _⟩ => rfl

/-- A float maximum over the lanes of an `a × b` array, at the extended reals and at row `r`, is the fold of `max`
    from the accumulator's value over the row's entries. -/
theorem multiReduction_max_rows {a b : ℕ} {φ : FTy} (x : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (r : Fin a) :
    multiReduction .maximumf [(1 : Fin 2)] ⟨1, ![a]⟩ x acc h hφ hacc (ix1 r)
      = (Finset.univ : Finset (Fin b)).fold max (Ideal.ofBits φ acc) (fun k => x (ix2 r k)) := by
  refine (Ideal.multiReduction_maximumf_single x acc h hφ hacc (ix1 r)).trans ?_
  have e : (x ∘ h.lift (ix1 r)) = fun k => x (ix2 r k) :=
    funext fun k => congrArg x (lift_rows h r k)
  exact congrArg (fun f => (Finset.univ : Finset (Fin b)).fold max (Ideal.ofBits φ acc) f) e

end Cert.Proof.RowMax

end
-- ==== Proof.HeadValue.lean ====
/-
  The kernel body's arithmetic read at an index.

  One head's chain of vector operations, and the two projections around the heads, are read entry by entry on the
  extended reals and identified with the index-by-index attention of the specification:

  * `scoresVec_apply`: entry `(r, m)` of the scaled scores is the dot product of query row `r` and key row `m` over
    the 64 features, times the scale (the transposed keys at `(d, m)` are the keys at `(m, d)`);
  * `rowMaxVec_apply`: the spread row maxima at `(r, m)` are the fold of `max` from minus infinity over row `r`;
  * `weighVec_apply`: entry `(r, j)` of the head's result is `∑ m, (e r m / ∑ m', e r m') · v (m, j)` with
    `e r m = exp (sc (r, m) − mx (r, m))` (the format changes are the identity on the extended reals, and the row
    sums, given a unit axis and spread over the lanes, read the row's sum at every lane);
  * `headVec_apply`: the three together are the specification's head;
  * `qkv_apply`: the projection of the slab at `(r, e)` is `∑ d, X (r, d) · W (d, e)`, the slab read under its unit
    leading axis;
  * `outproj_apply`: the output block at `(0, r, c)` is `∑ e, A (r, e) · Wo (e, c)` plus the bias at `c`, the bias row
    spread over the rows.
-/
import proofs.«115339_j7516192768567_2_alg».proof.Proof.KernelHead
import proofs.«115339_j7516192768567_2_alg».proof.Proof.AttentionSpec
import proofs.«115339_j7516192768567_2_alg».proof.Proof.LibPlainDot
import proofs.«115339_j7516192768567_2_alg».proof.Proof.LibColumns
import proofs.«115339_j7516192768567_2_alg».proof.Proof.LibRowMax
import Idealize.ShloMosaic.Lib.ValueLayout

set_option synthInstance.maxSize 4096

noncomputable section

open scoped BigOperators

namespace Cert.KernelIdeal.Head

open Idealize.ShloMosaic Idealize.ShloMosaic.ValueIdx Cert.KernelIdeal Cert.KernelIdeal.Gen

/-- The scaled scores at `(r, m)`: the matrix product of the queries with the transposed keys is the dot product of
    query row `r` with key row `m`, and the splat factor is the scale. -/
theorem scoresVec_apply (q k : FVec Ideal S512x64 .bf16) (r m : Fin 512) :
    scoresVec q k (ix2 r m) = Cert.Attention.score (fun a d => q (ix2 a d)) (fun a d => k (ix2 a d)) r m := by
  unfold scoresVec Cert.Attention.score
  refine (mulf_apply _ _ _).trans ?_
  refine congrArg₂ (· * ·) ?_ ?_
  · refine (Cert.Proof.PlainDot.matmul_plain_zero none q _ (ix2 r m)).trans ?_
    refine Finset.sum_congr rfl fun d _ => ?_
    refine congrArg (q (ix2 r d) * ·) ?_
    exact transpose_ix2_apply k _ d m
  · rfl

/-- The spread row maxima at `(r, m)`: the lane maximum of row `r`, whatever the lane `m`. -/
theorem rowMaxVec_apply (sc : FVec Ideal S512x512 .f32) (r m : Fin 512) :
    rowMaxVec sc (ix2 r m)
      = (Finset.univ : Finset (Fin 512)).fold max Cert.Attention.negInf (fun m' => sc (ix2 r m')) := by
  unfold rowMaxVec
  refine (Cert.Proof.Columns.broadcastTo_a1_ab_apply _ _ r m).trans ?_
  refine (Cert.Proof.Columns.shapeCast_a_a1_apply _ _ r 0).trans ?_
  exact Cert.Proof.RowMax.multiReduction_max_rows sc _ _ _ _ r

/-- The head's result at `(r, j)` from the scores and the spread maxima: the softmax weights of row `r` (exponentials
    of the shifted scores over their row sum) summed against column `j` of the values. -/
theorem weighVec_apply (v : FVec Ideal S512x64 .bf16) (sc mx : FVec Ideal S512x512 .f32) (r : Fin 512) (j : Fin 64) :
    weighVec v sc mx (ix2 r j)
      = ∑ m : Fin 512, Ideal.div (Ideal.exp (sc (ix2 r m) - mx (ix2 r m)))
          (∑ m' : Fin 512, Ideal.exp (sc (ix2 r m') - mx (ix2 r m'))) * v (ix2 m j) := by
  unfold weighVec
  refine (congrFun (shapeCast_self _ _) (ix2 r j)).trans ?_
  refine (truncf_apply (φ := .f32) (ψ := .bf16) _ bitsLt_bf16_f32 (ix2 r j)).trans ?_
  refine (Cert.Proof.PlainDot.matmul_plain_zero none _ v (ix2 r j)).trans ?_
  refine Finset.sum_congr rfl fun m _ => ?_
  refine congrArg (· * v (ix2 m j)) ?_
  refine (truncf_apply (φ := .f32) (ψ := .bf16) _ bitsLt_bf16_f32 (ix2 r m)).trans ?_
  refine (divf_apply _ _ _).trans ?_
  refine congrArg₂ Ideal.div rfl ?_
  refine (Cert.Proof.Columns.broadcastTo_a1_ab_apply _ _ r m).trans ?_
  refine (Cert.Proof.Columns.shapeCast_a_a1_apply _ _ r 0).trans ?_
  refine (Cert.Proof.Columns.multiReduction_add_rows _ _ _ _ _ r).trans ?_
  rfl

/-- One head read at `(r, j)` is the specification's head of the three pieces read by coordinates. -/
theorem headVec_apply (q k v : FVec Ideal S512x64 .bf16) (r : Fin 512) (j : Fin 64) :
    headVec q k v (ix2 r j)
      = Cert.Attention.head (fun a d => q (ix2 a d)) (fun a d => k (ix2 a d)) (fun a d => v (ix2 a d)) r j := by
  unfold headVec
  refine (weighVec_apply v _ _ r j).trans ?_
  have hs : ∀ m : Fin 512, scoresVec q k (ix2 r m)
      = Cert.Attention.score (fun a d => q (ix2 a d)) (fun a d => k (ix2 a d)) r m := fun m => scoresVec_apply q k r m
  have hm : ∀ m : Fin 512, rowMaxVec (scoresVec q k) (ix2 r m)
      = Cert.Attention.rowMax (Cert.Attention.score (fun a d => q (ix2 a d)) (fun a d => k (ix2 a d))) r := by
    intro m
    refine (rowMaxVec_apply _ r m).trans ?_
    exact congrArg (fun f => (Finset.univ : Finset (Fin 512)).fold max Cert.Attention.negInf f) (funext hs)
  have he : ∀ m : Fin 512, Ideal.exp (scoresVec q k (ix2 r m) - rowMaxVec (scoresVec q k) (ix2 r m))
      = Cert.Attention.pexp (Cert.Attention.score (fun a d => q (ix2 a d)) (fun a d => k (ix2 a d))) r m := by
    intro m
    rw [hs m, hm m]
    rfl
  simp only [he]
  rfl

/-- The projection of the slab read at `(r, e)`: the textbook matrix product of the slab (under its unit leading axis)
    with the weights. -/
theorem qkv_apply (v0 : Vec Ideal S1x512x512 .f32) (v3 : Vec Ideal S512x1536 .bf16) (r : Fin 512) (e : Fin 1536) :
    k0_pay3 v0 v3 (ix2 r e)
      = Cert.Attention.proj (fun a d => v0 (ix3 (0 : Fin 1) a d)) (fun d e' => v3 (ix2 d e')) r e := by
  unfold k0_pay3 Cert.Attention.proj
  refine (truncf_apply (φ := .f32) (ψ := .bf16) _ bitsLt_bf16_f32 (ix2 r e)).trans ?_
  refine (Cert.Proof.PlainDot.matmul_plain_zero none _ _ (ix2 r e)).trans ?_
  refine Finset.sum_congr rfl fun d _ => ?_
  refine congrArg₂ (· * ·) ?_ ?_
  · refine (truncf_apply (φ := .f32) (ψ := .bf16) _ bitsLt_bf16_f32 (ix2 r d)).trans ?_
    exact shapeCast_1ab_ab_apply v0 _ r d
  · exact congrFun (shapeCast_self v3 _) (ix2 d e)

/-- The output block read at `(0, r, c)`: the textbook matrix product of the two operands plus the bias at column `c`. -/
theorem outproj_apply (v186 v187 : Vec Ideal S512x512 .bf16) (v190 : Vec Ideal S512 .f32) (r c : Fin 512) :
    k0_pay2 v186 v187 v190 (ix3 (0 : Fin 1) r c)
      = (∑ e : Fin 512, v186 (ix2 r e) * v187 (ix2 e c)) + v190 (ix1 c) := by
  unfold k0_pay2
  refine (shapeCast_ab_1ab_apply _ _ 0 r c).trans ?_
  refine (addf_apply _ _ _).trans ?_
  refine congrArg₂ (· + ·) ?_ ?_
  · refine (Cert.Proof.PlainDot.matmul_plain_zero none v186 _ (ix2 r c)).trans ?_
    refine Finset.sum_congr rfl fun e _ => ?_
    exact congrArg (v186 (ix2 r e) * ·) (congrFun (shapeCast_self v187 _) (ix2 e c))
  · refine (broadcastTo_1b_ab_apply _ _ r c).trans ?_
    exact shapeCast_a_1a_apply v190 _ 0 c

end Cert.KernelIdeal.Head

end
-- ==== Proof.LibUnitRect.lean ====
/-
  Reading a matrix through a unit-stride rectangle.

  A unit-stride rectangle of an N0 × N1 matrix with first row o0, first column o1 and n0 × n1 entries places its own
  index (a, b) at the matrix index (o0 + a, o1 + b). This is what a load or a store through such a rectangle reads or
  writes, entry by entry: a body that handles a block in several rectangular pieces is read piece by piece with it.
  The target coordinates are taken as arbitrary indices with their values given by hypotheses, so that a caller can name
  them in whatever form its own statement uses (a literal offset, a grid coordinate's multiple, a computed offset known
  only through an equation) and never has to rewrite the rectangle itself, whose bounds proof depends on the offsets.
-/
import Idealize.ShloMosaic.Lib.ValueIdx

namespace Cert.LibUnitRect

open Idealize.ShloMosaic Idealize.ShloMosaic.ValueIdx

/-- A unit-stride rectangle of a matrix places its own index `x` at (first row + x 0, first column + x 1): for any
    matrix indices `a`, `b` with those values, `idx x = (a, b)`. -/
theorem unit_idx2 {N0 N1 : Nat} (off size : Fin 2 → Nat) (inb : ∀ a, off a + size a ≤ (⟨2, ![N0, N1]⟩ : Shape).size a)
    (x : (Rect.unit (s := ⟨2, ![N0, N1]⟩) off size inb).shape.Idx) (a : Fin N0) (b : Fin N1)
    (ha : a.val = off 0 + (x 0).val) (hb : b.val = off 1 + (x 1).val) :
    (Rect.unit (s := ⟨2, ![N0, N1]⟩) off size inb).idx x = ix2 a b := by
  funext d; apply Fin.ext
  match d with
  | ⟨0, _⟩ => show off 0 + 1 * (x 0).val = a.val; omega
  | ⟨1, _⟩ => show off 1 + 1 * (x 1).val = b.val; omega

/-- The same for the rectangle's embedding (a store's side of the same reading). -/
theorem unit_emb2 {N0 N1 : Nat} (off size : Fin 2 → Nat) (inb : ∀ a, off a + size a ≤ (⟨2, ![N0, N1]⟩ : Shape).size a)
    (x : (Rect.unit (s := ⟨2, ![N0, N1]⟩) off size inb).shape.Idx) (a : Fin N0) (b : Fin N1)
    (ha : a.val = off 0 + (x 0).val) (hb : b.val = off 1 + (x 1).val) :
    (Rect.unit (s := ⟨2, ![N0, N1]⟩) off size inb).emb x = ix2 a b :=
  unit_idx2 off size inb x a b ha hb

end Cert.LibUnitRect
-- ==== Proof.BodyValue.lean ====
/-
  What one run of the kernel body leaves in its output block, index by index: the attention layer of the slab it was
  given.

  The body projects the slab once and cuts the projection into its three thirds (queries, keys, values). Each of the
  eight heads takes its 64 columns of the three, runs the head's chain of vector operations and stores the result into
  its own 64 columns of a 512 × 512 scratch; the scratch is then read back whole, multiplied by the output weights, and
  the bias row is added to every row. Read back, the eight column blocks are ONE function of the scratch index —
  column `e` holds feature `e % 64` of head `e / 64` — which is the heads laid side by side; so the stored block is
  the attention layer of the slab.
-/
import proofs.«115339_j7516192768567_2_alg».proof.Proof.Gen.KernelIdeal.Frame
import proofs.«115339_j7516192768567_2_alg».proof.Proof.KernelHead
import proofs.«115339_j7516192768567_2_alg».proof.Proof.HeadValue
import proofs.«115339_j7516192768567_2_alg».proof.Proof.AttentionSpec
import proofs.«115339_j7516192768567_2_alg».proof.Proof.LibUnitRect
import Idealize.ShloMosaic.Lib.Pipeline.Value

set_option maxRecDepth 16384

noncomputable section
namespace Cert.KernelIdeal.Body
open Cert.KernelIdeal Cert.KernelIdeal.Gen
open Idealize.ShloMosaic Idealize.ShloMosaic.TcCoe Idealize.ShloMosaic.Tactic
open Idealize.SL Idealize.SL.Sem
variable {F : FTy → Type} [FloatOps F]

/-- The zero offsets of a whole-block access, in the three ranks the body uses. -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The eight heads' results, each from the slab and the projection weights. -/
def headAt (x0 : Vec F S1x512x512 .f32) (x1 : Vec F S512x1536 .bf16) (h : Fin 8) : FVec F S512x64 .bf16 :=
  match h with
  | ⟨0, _⟩ => k0_pay7 x0 x1
  | ⟨1, _⟩ => k0_pay11 (k0_pay8 x0 x1) (k0_pay9 x0 x1) (k0_pay10 x0 x1)
  | ⟨2, _⟩ => k0_pay12 (k0_pay4 x0 x1) (k0_pay5 x0 x1) (k0_pay6 x0 x1)
  | ⟨3, _⟩ => k0_pay16 (k0_pay13 (k0_pay6 x0 x1)) (k0_pay14 (k0_pay4 x0 x1) (k0_pay5 x0 x1)) (k0_pay15 (k0_pay4 x0 x1) (k0_pay5 x0 x1))
  | ⟨4, _⟩ => k0_pay17 (k0_pay4 x0 x1) (k0_pay5 x0 x1) (k0_pay6 x0 x1)
  | ⟨5, _⟩ => k0_pay21 (k0_pay18 (k0_pay6 x0 x1)) (k0_pay19 (k0_pay4 x0 x1) (k0_pay5 x0 x1)) (k0_pay20 (k0_pay4 x0 x1) (k0_pay5 x0 x1))
  | ⟨6, _⟩ => k0_pay22 (k0_pay4 x0 x1) (k0_pay5 x0 x1) (k0_pay6 x0 x1)
  | ⟨7, _⟩ => k0_pay1 (k0_pay23 (k0_pay6 x0 x1)) (k0_pay24 (k0_pay4 x0 x1) (k0_pay5 x0 x1)) (k0_pay25 (k0_pay4 x0 x1) (k0_pay5 x0 x1))

/-- The stores into the scratch, last first: head `h` into columns `64 h … 64 h + 63`. -/
def pieces (x0 : Vec F S1x512x512 .f32) (x1 : Vec F S512x1536 .bf16) : List (View.Piece (Elt F) S512x512 .bf16) :=
  [⟨Rect.unit ![0, 448] S512x64.size inb_S512x512_S512x64_0_448, headAt x0 x1 7⟩,
   ⟨Rect.unit ![0, 384] S512x64.size inb_S512x512_S512x64_0_384, headAt x0 x1 6⟩,
   ⟨Rect.unit ![0, 320] S512x64.size inb_S512x512_S512x64_0_320, headAt x0 x1 5⟩,
   ⟨Rect.unit ![0, 256] S512x64.size inb_S512x512_S512x64_0_256, headAt x0 x1 4⟩,
   ⟨Rect.unit ![0, 192] S512x64.size inb_S512x512_S512x64_0_192, headAt x0 x1 3⟩,
   ⟨Rect.unit ![0, 128] S512x64.size inb_S512x512_S512x64_0_128, headAt x0 x1 2⟩,
   ⟨Rect.unit ![0, 64] S512x64.size inb_S512x512_S512x64_0_64, headAt x0 x1 1⟩,
   ⟨Rect.unit ![0, 0] S512x64.size inb_S512x512_S512x64_0_0, headAt x0 x1 0⟩]

/-- The output block is the output projection of the scratch as the eight stores leave it: the body's one store into the
    output writes the whole block, and its operands are the scratch read back, the output weights and the bias. -/
theorem out0_eq (c : Dev nD) (i : grid0.Coords) (arg1 : Memref sig .tc .vmem S1x512x512 .f32) (harg1 : arg1.IsWhole) (arg2 : Memref sig .tc .vmem S512x1536 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S1x512x512 .f32) (harg5 : arg5.IsWhole) (arg6 : Memref sig .tc .vmem S512x512 .bf16) (harg6 : arg6.IsWhole)
    (x0 : Vec F S1x512x512 .f32) (x1 : Vec F S512x1536 .bf16) (x2 : Vec F S512x512 .bf16) (x3 : Vec F S512 .f32) :
    out0_A_4 c i arg1 harg1 arg2 harg2 arg3 harg3 arg4 harg4 arg5 harg5 arg6 harg6 x0 x1 x2 x3
      = k0_pay2 (View.canon (pieces x0 x1)) x2 x3 := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  rw [View.canon_unit_zero hz3]
  sl_unfold_run_names
  simp only [View.readAt_eq_ld, harg1.read_unread, harg2.read_unread, harg3.read_unread, harg4.read_unread,
    View.ld_unit_zero (S := S1x512x512) hz3, View.ld_unit_zero (S := S512x1536) hz2, View.ld_unit_zero (S := S512x512) hz2,
    View.ld_unit_zero (S := S512) hz1]
  rw [View.readCov_eq_canon']
  refine congrArg (fun v => k0_pay2 v x2 x3) ?_
  exact View.ld_unit_zero (S := S512x512) hz2 inb_S512x512_S512x512_0_0 (View.canon (pieces x0 x1))

open Idealize.ShloMosaic.ValueIdx Cert.KernelIdeal.Head

/-- Sixty-four columns cut out of 512 at column `off`, read at `(r, d)`: the operand at `(r, off + d)`. -/
theorem cols64_apply {α : Type} (off : Nat) (hoff : off + 64 ≤ 512) (x : S512x512.Idx → α) (hs : S512x512.Slices ![0, off] S512x64)
    (r : Fin 512) (d : Fin 64) :
    extractStridedSlice S512x64 ![0, off] x hs (ix2 r d) = x (ix2 r (⟨off + d.val, by have := d.isLt; omega⟩ : Fin 512)) :=
  extractStridedSlice_apply _ x hs _ _ fun a => by
    match a with
    | ⟨0, _⟩ => show r.val = 0 + r.val; omega
    | ⟨1, _⟩ => rfl

/-- A third of the projection's 1536 columns, from column `off`, read at `(r, e)`. -/
theorem cols512_apply {α : Type} (off : Nat) (hoff : off + 512 ≤ 1536) (x : S512x1536.Idx → α) (hs : S512x1536.Slices ![0, off] S512x512)
    (r : Fin 512) (e : Fin 512) :
    extractStridedSlice S512x512 ![0, off] x hs (ix2 r e) = x (ix2 r (⟨off + e.val, by have := e.isLt; omega⟩ : Fin 1536)) :=
  extractStridedSlice_apply _ x hs _ _ fun a => by
    match a with
    | ⟨0, _⟩ => show r.val = 0 + r.val; omega
    | ⟨1, _⟩ => rfl

/-- The projection's three thirds at `(r, e)`: the queries, keys and values are its columns `e`, `512 + e`, `1024 + e`. -/
theorem third_apply (x0 : Vec Ideal S1x512x512 .f32) (x1 : Vec Ideal S512x1536 .bf16) (r e : Fin 512) :
    k0_pay4 x0 x1 (ix2 r e) = k0_pay3 x0 x1 (ix2 r (⟨0 + e.val, by have := e.isLt; omega⟩ : Fin 1536))
    ∧ k0_pay5 x0 x1 (ix2 r e) = k0_pay3 x0 x1 (ix2 r (⟨512 + e.val, by have := e.isLt; omega⟩ : Fin 1536))
    ∧ k0_pay6 x0 x1 (ix2 r e) = k0_pay3 x0 x1 (ix2 r (⟨1024 + e.val, by have := e.isLt; omega⟩ : Fin 1536)) :=
  ⟨cols512_apply 0 (by omega) (k0_pay3 x0 x1) slices_S512x1536_o0_0_S512x512 r e,
   cols512_apply 512 (by omega) (k0_pay3 x0 x1) slices_S512x1536_o0_512_S512x512 r e,
   cols512_apply 1024 (by omega) (k0_pay3 x0 x1) slices_S512x1536_o0_1024_S512x512 r e⟩

/-- A head depends on its three pieces entry by entry. -/
theorem head_congr {Q Q' K K' V V' : Fin 512 → Fin 64 → EReal} (hQ : ∀ a d, Q a d = Q' a d) (hK : ∀ a d, K a d = K' a d)
    (hV : ∀ a d, V a d = V' a d) (r : Fin 512) (j : Fin 64) :
    Cert.Attention.head Q K V r j = Cert.Attention.head Q' K' V' r j := by
  obtain rfl : Q = Q' := funext fun a => funext fun d => hQ a d
  obtain rfl : K = K' := funext fun a => funext fun d => hK a d
  obtain rfl : V = V' := funext fun a => funext fun d => hV a d
  rfl

/-- One head of the body from the three 64-column pieces at the head's offset: head `h` of the slab. -/
theorem head_of_cols (x0 : Vec Ideal S1x512x512 .f32) (x1 : Vec Ideal S512x1536 .bf16) (h : Fin 8)
    (hs : S512x512.Slices ![0, 64 * h.val] S512x64) (r : Fin 512) (j : Fin 64) :
    headVec (extractStridedSlice S512x64 ![0, 64 * h.val] (k0_pay4 x0 x1) hs) (extractStridedSlice S512x64 ![0, 64 * h.val] (k0_pay5 x0 x1) hs)
        (extractStridedSlice S512x64 ![0, 64 * h.val] (k0_pay6 x0 x1) hs) (ix2 r j)
      = Cert.Attention.headOf (fun a d => x0 (ix3 (0 : Fin 1) a d)) (fun d e => x1 (ix2 d e)) h r j := by
  have hh := h.isLt
  rw [headVec_apply]
  unfold Cert.Attention.headOf
  have key : ∀ (s : Fin 3) (a : Fin 512) (d : Fin 64) (e : Fin 1536), e.val = 512 * s.val + (64 * h.val + d.val) →
      k0_pay3 x0 x1 (ix2 a e)
        = Cert.Attention.proj (fun a d => x0 (ix3 (0 : Fin 1) a d)) (fun d e => x1 (ix2 d e)) a (Cert.Attention.col s h d) := by
    intro s a d e he
    rw [qkv_apply]
    exact congrArg _ (Fin.ext (by show e.val = 512 * s.val + 64 * h.val + d.val; omega))
  refine head_congr ?_ ?_ ?_ r j
  · intro a d
    rw [cols64_apply (64 * h.val) (by omega), (third_apply x0 x1 a _).1]
    exact key 0 a d _ (by show 0 + (64 * h.val + d.val) = 512 * 0 + (64 * h.val + d.val); omega)
  · intro a d
    rw [cols64_apply (64 * h.val) (by omega), (third_apply x0 x1 a _).2.1]
    exact key 1 a d _ (by show 512 + (64 * h.val + d.val) = 512 * 1 + (64 * h.val + d.val); omega)
  · intro a d
    rw [cols64_apply (64 * h.val) (by omega), (third_apply x0 x1 a _).2.2]
    exact key 2 a d _ (by show 1024 + (64 * h.val + d.val) = 512 * 2 + (64 * h.val + d.val); omega)

/-- Each of the eight stored column blocks is its head of the slab. -/
theorem headAt_apply (x0 : Vec Ideal S1x512x512 .f32) (x1 : Vec Ideal S512x1536 .bf16) (h : Fin 8) (r : Fin 512) (j : Fin 64) :
    headAt x0 x1 h (ix2 r j) = Cert.Attention.headOf (fun a d => x0 (ix3 (0 : Fin 1) a d)) (fun d e => x1 (ix2 d e)) h r j := by
  match h with
  | ⟨0, _⟩ => exact head_of_cols x0 x1 ⟨0, by omega⟩ slices_S512x512_o0_0_S512x64 r j
  | ⟨1, _⟩ => exact head_of_cols x0 x1 ⟨1, by omega⟩ slices_S512x512_o0_64_S512x64 r j
  | ⟨2, _⟩ => exact head_of_cols x0 x1 ⟨2, by omega⟩ slices_S512x512_o0_128_S512x64 r j
  | ⟨3, _⟩ => exact head_of_cols x0 x1 ⟨3, by omega⟩ slices_S512x512_o0_192_S512x64 r j
  | ⟨4, _⟩ => exact head_of_cols x0 x1 ⟨4, by omega⟩ slices_S512x512_o0_256_S512x64 r j
  | ⟨5, _⟩ => exact head_of_cols x0 x1 ⟨5, by omega⟩ slices_S512x512_o0_320_S512x64 r j
  | ⟨6, _⟩ => exact head_of_cols x0 x1 ⟨6, by omega⟩ slices_S512x512_o0_384_S512x64 r j
  | ⟨7, _⟩ => exact head_of_cols x0 x1 ⟨7, by omega⟩ slices_S512x512_o0_448_S512x64 r j

/-- The scratch as one function of its index: column `e` holds feature `e % 64` of head `e / 64`. -/
def catAt (x0 : Vec F S1x512x512 .f32) (x1 : Vec F S512x1536 .bf16) (y : S512x512.Idx) : F .bf16 :=
  headAt x0 x1 (⟨(y 1).val / 64, by have := idx2_lt1 y; omega⟩ : Fin 8)
    (ix2 (⟨(y 0).val, idx2_lt0 y⟩ : Fin 512) (⟨(y 1).val % 64, Nat.mod_lt _ (by norm_num)⟩ : Fin 64))

/-- The store of head `h` writes, through its rectangle of columns `64 h … 64 h + 63`, that block of the one function. -/
theorem piece_catAt (x0 : Vec F S1x512x512 .f32) (x1 : Vec F S512x1536 .bf16) (h : Fin 8) (off : Fin 2 → Nat)
    (hoff : off = ![0, 64 * h.val]) (inb : ∀ a, off a + S512x64.size a ≤ S512x512.size a)
    (x : (Rect.unit (s := S512x512) off S512x64.size inb).shape.Idx) :
    headAt x0 x1 h x = catAt x0 x1 ((Rect.unit (s := S512x512) off S512x64.size inb).emb x) := by
  subst hoff
  have hh := h.isLt
  have h0 : (x 0).val < 512 := (x 0).isLt
  have h1 : (x 1).val < 64 := (x 1).isLt
  rw [Cert.LibUnitRect.unit_emb2 (N0 := 512) (N1 := 512) _ _ inb x (⟨(x 0).val, h0⟩ : Fin 512) (⟨64 * h.val + (x 1).val, by omega⟩ : Fin 512)
    (by show (x 0).val = 0 + (x 0).val; omega) rfl]
  unfold catAt
  have e1 : (⟨(64 * h.val + (x 1).val) / 64, by omega⟩ : Fin 8) = h := Fin.ext (by show (64 * h.val + (x 1).val) / 64 = h.val; omega)
  have e2 : (⟨(64 * h.val + (x 1).val) % 64, Nat.mod_lt _ (by norm_num)⟩ : Fin 64) = ⟨(x 1).val, h1⟩ :=
    Fin.ext (by show (64 * h.val + (x 1).val) % 64 = (x 1).val; omega)
  show headAt x0 x1 h x = headAt x0 x1 (⟨(64 * h.val + (x 1).val) / 64, _⟩ : Fin 8)
    (ix2 (⟨(x 0).val, _⟩ : Fin 512) (⟨(64 * h.val + (x 1).val) % 64, _⟩ : Fin 64))
  rw [e1, e2]
  exact congrArg (headAt x0 x1 h) (funext fun a => by match a with | ⟨0, _⟩ => rfl | ⟨1, _⟩ => rfl)

/-- The eight stores together leave the one function in the scratch. -/
theorem canon_pieces (x0 : Vec F S1x512x512 .f32) (x1 : Vec F S512x1536 .bf16) (y : S512x512.Idx) :
    View.canon (pieces x0 x1) y = catAt x0 x1 y := by
  refine View.canon_apply_of_pieces (catAt x0 x1) (pieces x0 x1) ?_ y (View.cover_of_tiledL (pieces x0 x1) S512x64.size (by sl_kernel_rfl) y)
  intro p hp
  simp only [pieces, List.mem_cons, List.not_mem_nil, or_false] at hp
  rcases hp with rfl | rfl | rfl | rfl | rfl | rfl | rfl | rfl
  · exact piece_catAt x0 x1 7 ![0, 448] rfl inb_S512x512_S512x64_0_448
  · exact piece_catAt x0 x1 6 ![0, 384] rfl inb_S512x512_S512x64_0_384
  · exact piece_catAt x0 x1 5 ![0, 320] rfl inb_S512x512_S512x64_0_320
  · exact piece_catAt x0 x1 4 ![0, 256] rfl inb_S512x512_S512x64_0_256
  · exact piece_catAt x0 x1 3 ![0, 192] rfl inb_S512x512_S512x64_0_192
  · exact piece_catAt x0 x1 2 ![0, 128] rfl inb_S512x512_S512x64_0_128
  · exact piece_catAt x0 x1 1 ![0, 64] rfl inb_S512x512_S512x64_0_64
  · exact piece_catAt x0 x1 0 ![0, 0] rfl inb_S512x512_S512x64_0_0

/-- The output block the body leaves, at row `r` and column `c'`, is the attention layer of the input block. -/
theorem out0_apply (c : Dev nD) (i : grid0.Coords) (arg1 : Memref sig .tc .vmem S1x512x512 .f32) (harg1 : arg1.IsWhole)
    (arg2 : Memref sig .tc .vmem S512x1536 .bf16) (harg2 : arg2.IsWhole) (arg3 : Memref sig .tc .vmem S512x512 .bf16) (harg3 : arg3.IsWhole)
    (arg4 : Memref sig .tc .vmem S512 .f32) (harg4 : arg4.IsWhole) (arg5 : Memref sig .tc .vmem S1x512x512 .f32) (harg5 : arg5.IsWhole)
    (arg6 : Memref sig .tc .vmem S512x512 .bf16) (harg6 : arg6.IsWhole)
    (x0 : Vec Ideal S1x512x512 .f32) (x1 : Vec Ideal S512x1536 .bf16) (x2 : Vec Ideal S512x512 .bf16) (x3 : Vec Ideal S512 .f32)
    (r c' : Fin 512) :
    out0_A_4 (F := Ideal) c i arg1 harg1 arg2 harg2 arg3 harg3 arg4 harg4 arg5 harg5 arg6 harg6 x0 x1 x2 x3 (ix3 (0 : Fin 1) r c')
      = Cert.Attention.attn (fun a d => x0 (ix3 (0 : Fin 1) a d)) (fun d e => x1 (ix2 d e)) (fun e c'' => x2 (ix2 e c''))
          (fun c'' => x3 (ix1 c'')) r c' := by
  rw [out0_eq, outproj_apply]
  unfold Cert.Attention.attn
  refine congrArg (· + x3 (ix1 c')) (Finset.sum_congr rfl fun e _ => ?_)
  refine congrArg (· * x2 (ix2 e c')) ?_
  rw [canon_pieces]
  unfold catAt Cert.Attention.concat
  exact headAt_apply x0 x1 _ _ _

end Cert.KernelIdeal.Body
end
-- ==== Proof.KernelValue.lean ====
/-
  From one slab to the whole batch. The program re-lays the batch of 2 × 16 slabs as 32 slabs in a row, runs the kernel
  body once per slab — grid point `t` reads slab `t` and the three weight arrays whole, and writes slab `t` of the
  result — and re-lays the 32 result slabs as the batch. Since the body leaves in its output block the attention layer
  of the block it was given, the row of result slabs is one function of the arguments, slab `t` being the attention
  layer of slab `(t / 16, t % 16)` of the batch; the blocks the points write back cover the row, so the region's
  result array is that function; and the last re-laying sends slab `16 b + p` to entry `(b, p)`, the same row-major
  position, so the program's result is the attention layer of every slab of the batch.
-/
import proofs.«115339_j7516192768567_2_alg».proof.Proof.BodyValue
import proofs.«115339_j7516192768567_2_alg».proof.Proof.AttentionArr

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the region finds

The first host line re-lays the batch of slabs as 32 slabs in a row; the next two change the weights' float format,
which at the extended reals changes nothing. -/

/-- The re-laid input as the region finds it. -/
theorem V_v0 (c : Dev nD) : (V m c main_v0 : S32x512x512.Idx → EReal)
    = shapeCast S32x512x512 (m ((c : Thread nD τ).loc main_arg0)) Gen.shapeCasts_S2x16x512x512_S32x512x512 := by
  show StableHlo.after hostOps0 (fun b => m (c, b)) (Proc.devRef .tc main_v0) = _
  after_results
  rfl

/-- The projection weights as the region finds them. -/
theorem V_v1 (c : Dev nD) : (V m c main_v1 : S512x1536.Idx → EReal) = m ((c : Thread nD τ).loc main_arg1) := by
  show StableHlo.after hostOps0 (fun b => m (c, b)) (Proc.devRef .tc main_v1) = _
  after_results
  rfl

/-- The output weights as the region finds them. -/
theorem V_v2 (c : Dev nD) : (V m c main_v2 : S512x512.Idx → EReal) = m ((c : Thread nD τ).loc main_arg2) := by
  show StableHlo.after hostOps0 (fun b => m (c, b)) (Proc.devRef .tc main_v2) = _
  after_results
  rfl

/-- Slab `t` of the row of 32 is slab `(t / 16, t % 16)` of the batch: the two have the same row-major position. -/
theorem V_v0_apply (c : Dev nD) (t : Fin 32) (a d : Fin 512) :
    (V m c main_v0 : S32x512x512.Idx → EReal) (ix3 t a d)
      = m ((c : Thread nD τ).loc main_arg0) (ix4 (⟨t.val / 16, by have := t.isLt; omega⟩ : Fin 2) (⟨t.val % 16, Nat.mod_lt _ (by norm_num)⟩ : Fin 16) a d) := by
  rw [V_v0]
  refine shapeCast_apply _ _ _ _ ?_
  show (S2x16x512x512.rowMajor _).val = (S32x512x512.rowMajor _).val
  rw [Shape.rowMajor_val_four, Shape.rowMajor_val_three]
  show ((t.val / 16 * 16 + t.val % 16) * 512 + a.val) * 512 + d.val = (t.val * 512 + a.val) * 512 + d.val
  have := t.isLt
  omega

/-! ## The windows' blocks -/

/-- The printed index maps over the grid: the input slab and the output slab are at the point's own number, the three
    weight arrays whole at every point. -/
theorem idx_facts : ∀ t : Fin cfg0.N,
    win0_0.index t (0 : Fin 3) = t.val ∧ win0_0.index t (1 : Fin 3) = 0 ∧ win0_0.index t (2 : Fin 3) = 0
    ∧ win0_4.index t (0 : Fin 3) = t.val ∧ win0_4.index t (1 : Fin 3) = 0 ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0 :=
  (by decide +kernel : ∀ t : Fin grid0.N, _)

/-- A grid point's number is below 32. -/
theorem lt32 (t : Fin cfg0.N) : t.val < 32 := lt_of_lt_of_eq t.isLt (show cfg0.N = 32 from N_0)

/-- The input block at point `t` is slab `(t / 16, t % 16)` of the batch. -/
theorem iblk0_apply (c : Dev nD) (t : Fin cfg0.N) (a d : Fin 512) :
    (iblk m c 0 t : Vec Ideal S1x512x512 .f32) (ix3 (0 : Fin 1) a d)
      = m ((c : Thread nD τ).loc main_arg0) (ix4 (⟨t.val / 16, by have := lt32 t; omega⟩ : Fin 2) (⟨t.val % 16, Nat.mod_lt _ (by norm_num)⟩ : Fin 16) a d) := by
  obtain ⟨e0, e1, e2, -⟩ := idx_facts t
  have ht := lt32 t
  unfold iblk
  rw [View.read_apply]
  show (V m c main_v0 : S32x512x512.Idx → EReal) (((cfg0.win 0).blk t).view.emb (ix3 (0 : Fin 1) a d)) = _
  have hemb : ((cfg0.win 0).blk t).view.emb (ix3 (0 : Fin 1) a d) = ix3 (⟨t.val, ht⟩ : Fin 32) a d := by
    funext x; apply Fin.ext
    match x with
    | ⟨0, _⟩ => show win0_0.index t (0 : Fin 3) * 1 + 1 * 0 = t.val; omega
    | ⟨1, _⟩ => show win0_0.index t (1 : Fin 3) * 512 + 1 * a.val = a.val; omega
    | ⟨2, _⟩ => show win0_0.index t (2 : Fin 3) * 512 + 1 * d.val = d.val; omega
  rw [hemb]
  exact V_v0_apply m c ⟨t.val, ht⟩ a d

/-- The projection weights' block is the whole array at every point. -/
theorem iblk1_apply (c : Dev nD) (t : Fin cfg0.N) (d : Fin 512) (e : Fin 1536) :
    (iblk m c 1 t : Vec Ideal S512x1536 .bf16) (ix2 d e) = m ((c : Thread nD τ).loc main_arg1) (ix2 d e) := by
  obtain ⟨-, -, -, -, -, -, e0, e1, -⟩ := idx_facts t
  unfold iblk
  rw [View.read_apply]
  show (V m c main_v1 : S512x1536.Idx → EReal) (((cfg0.win 1).blk t).view.emb (ix2 d e)) = _
  have hemb : ((cfg0.win 1).blk t).view.emb (ix2 d e) = ix2 d e := by
    funext x; apply Fin.ext
    match x with
    | ⟨0, _⟩ => show win0_1.index t (0 : Fin 2) * 512 + 1 * d.val = d.val; omega
    | ⟨1, _⟩ => show win0_1.index t (1 : Fin 2) * 1536 + 1 * e.val = e.val; omega
  rw [hemb, V_v1]

/-- The output weights' block is the whole array at every point. -/
theorem iblk2_apply (c : Dev nD) (t : Fin cfg0.N) (e c' : Fin 512) :
    (iblk m c 2 t : Vec Ideal S512x512 .bf16) (ix2 e c') = m ((c : Thread nD τ).loc main_arg2) (ix2 e c') := by
  obtain ⟨-, -, -, -, -, -, -, -, e0, e1, -⟩ := idx_facts t
  unfold iblk
  rw [View.read_apply]
  show (V m c main_v2 : S512x512.Idx → EReal) (((cfg0.win 2).blk t).view.emb (ix2 e c')) = _
  have hemb : ((cfg0.win 2).blk t).view.emb (ix2 e c') = ix2 e c' := by
    funext x; apply Fin.ext
    match x with
    | ⟨0, _⟩ => show win0_2.index t (0 : Fin 2) * 512 + 1 * e.val = e.val; omega
    | ⟨1, _⟩ => show win0_2.index t (1 : Fin 2) * 512 + 1 * c'.val = c'.val; omega
  rw [hemb, V_v2]

/-- The bias's block is the whole array at every point. -/
theorem iblk3_apply (c : Dev nD) (t : Fin cfg0.N) (c' : Fin 512) :
    (iblk m c 3 t : Vec Ideal S512 .f32) (ix1 c') = m ((c : Thread nD τ).loc main_arg3) (ix1 c') := by
  obtain ⟨-, -, -, -, -, -, -, -, -, -, e0⟩ := idx_facts t
  unfold iblk
  rw [View.read_apply]
  show (V m c main_arg3 : S512.Idx → EReal) (((cfg0.win 3).blk t).view.emb (ix1 c')) = _
  have hemb : ((cfg0.win 3).blk t).view.emb (ix1 c') = ix1 c' := by
    funext x; apply Fin.ext
    match x with
    | ⟨0, _⟩ => show win0_3.index t (0 : Fin 1) * 512 + 1 * c'.val = c'.val; omega
  rw [hemb, V_main_arg3]

/-! ## The region's result array -/

/-- The row of 32 result slabs as one function of the four argument arrays: slab `t` is the attention layer of slab
    `(t / 16, t % 16)` of the batch. -/
def slabArr (a0 : S2x16x512x512.Idx → EReal) (a1 : S512x1536.Idx → EReal) (a2 : S512x512.Idx → EReal) (a3 : S512.Idx → EReal) :
    S32x512x512.Idx → EReal := fun i =>
  Cert.Attention.attn
    (fun a d => a0 (ix4 (⟨(i 0).val / 16, by have h : (i 0).val < 32 := (i 0).isLt; omega⟩ : Fin 2) (⟨(i 0).val % 16, Nat.mod_lt _ (by norm_num)⟩ : Fin 16) a d))
    (fun d e => a1 (ix2 d e)) (fun e c => a2 (ix2 e c)) (fun c => a3 (ix1 c))
    (⟨(i 1).val, (i 1).isLt⟩ : Fin 512) (⟨(i 2).val, (i 2).isLt⟩ : Fin 512)

/-- At an index given by its coordinates. -/
theorem slabArr_apply (a0 : S2x16x512x512.Idx → EReal) (a1 : S512x1536.Idx → EReal) (a2 : S512x512.Idx → EReal) (a3 : S512.Idx → EReal)
    (t : Fin 32) (r c : Fin 512) :
    slabArr a0 a1 a2 a3 (ix3 t r c)
      = Cert.Attention.attn (fun a d => a0 (ix4 (⟨t.val / 16, by have := t.isLt; omega⟩ : Fin 2) (⟨t.val % 16, Nat.mod_lt _ (by norm_num)⟩ : Fin 16) a d))
          (fun d e => a1 (ix2 d e)) (fun e c' => a2 (ix2 e c')) (fun c' => a3 (ix1 c')) r c := rfl

/-- The result slabs of the launch's arguments on core `c`. -/
abbrev G3 (c : Dev nD) : S32x512x512.Idx → EReal :=
  slabArr (m ((c : Thread nD τ).loc main_arg0)) (m ((c : Thread nD τ).loc main_arg1)) (m ((c : Thread nD τ).loc main_arg2))
    (m ((c : Thread nD τ).loc main_arg3))

/-- What the body leaves at point `t`, entry by entry: slab `t` of the result. -/
theorem outsAt_apply (c : Dev nD) (t : Fin cfg0.N) (r c' : Fin 512) :
    (outsAt0 m c t : Vec Ideal S1x512x512 .f32) (ix3 (0 : Fin 1) r c') = G3 m c (ix3 (⟨t.val, lt32 t⟩ : Fin 32) r c') := by
  unfold outsAt0
  refine (Body.out0_apply c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 0 t) (iblk m c 1 t) (iblk m c 2 t) (iblk m c 3 t) r c').trans ?_
  have e0 : (fun a d => (iblk m c 0 t : Vec Ideal S1x512x512 .f32) (ix3 (0 : Fin 1) a d))
      = fun a d => m ((c : Thread nD τ).loc main_arg0) (ix4 (⟨t.val / 16, by have := lt32 t; omega⟩ : Fin 2) (⟨t.val % 16, Nat.mod_lt _ (by norm_num)⟩ : Fin 16) a d) :=
    funext fun a => funext fun d => iblk0_apply m c t a d
  have e1 : (fun d e => (iblk m c 1 t : Vec Ideal S512x1536 .bf16) (ix2 d e)) = fun d e => m ((c : Thread nD τ).loc main_arg1) (ix2 d e) :=
    funext fun d => funext fun e => iblk1_apply m c t d e
  have e2 : (fun e c'' => (iblk m c 2 t : Vec Ideal S512x512 .bf16) (ix2 e c'')) = fun e c'' => m ((c : Thread nD τ).loc main_arg2) (ix2 e c'') :=
    funext fun e => funext fun c'' => iblk2_apply m c t e c''
  have e3 : (fun c'' => (iblk m c 3 t : Vec Ideal S512 .f32) (ix1 c'')) = fun c'' => m ((c : Thread nD τ).loc main_arg3) (ix1 c'') :=
    funext fun c'' => iblk3_apply m c t c''
  rw [e0, e1, e2, e3]
  rfl

/-- What point `t` writes back is block `t` of the result slabs. -/
theorem flushed_eq (c : Dev nD) (t : Fin cfg0.N) :
    (dats m 0 c).flushed 4 t = ((cfg0.win 4).blk t).view.read (Elt Ideal) (G3 m c) := by
  show (cfg0.win 4).cut (grid0.coords t) ((dats m 0 c).after 4 t) = _
  rw [after0_4]
  obtain ⟨-, -, -, e0, e1, e2, -⟩ := idx_facts t
  have key : (outsAt0 m c t : S1x512x512.Idx → EReal)
      = fun y => G3 m c (ix3 (⟨t.val, lt32 t⟩ : Fin 32) (⟨(y 1).val, (y 1).isLt⟩ : Fin 512) (⟨(y 2).val, (y 2).isLt⟩ : Fin 512)) := by
    funext y
    obtain ⟨z, r, c', rfl⟩ : ∃ (z : Fin 1) (r c' : Fin 512), y = ix3 z r c' := ⟨y 0, y 1, y 2, eq_ix3 y⟩
    obtain rfl : z = 0 := Subsingleton.elim _ _
    exact outsAt_apply m c t r c'
  rw [key]
  funext y
  rw [View.read_apply]
  refine congrArg (G3 m c) ?_
  funext x; apply Fin.ext
  match x with
  | ⟨0, _⟩ => show t.val = win0_4.index t (0 : Fin 3) * 1 + 1 * (y 0).val; have hy : (y 0).val < 1 := (y 0).isLt; omega
  | ⟨1, _⟩ => show (y 1).val = win0_4.index t (1 : Fin 3) * 512 + 1 * (y 1).val; omega
  | ⟨2, _⟩ => show (y 2).val = win0_4.index t (2 : Fin 3) * 512 + 1 * (y 2).val; omega

/-- An index of the row of slabs is in point `t`'s block iff each coordinate is in the block's range on its axis. -/
theorem mem_blk (t : Fin cfg0.N) (i : S32x512x512.Idx) :
    i ∈ ((cfg0.win 4).blk t).view.set ↔ ∀ a : Fin 3, win0_4.index t a * S1x512x512.size a ≤ (i a).val
      ∧ (i a).val < win0_4.index t a * S1x512x512.size a + S1x512x512.size a := by
  show i ∈ ((View.whole main_v3).slice (win0_4.rect t)).set ↔ _
  rw [View.set_slice_whole, Rect.mem_set_unit]
  exact Iff.rfl

/-- Every index of the row of slabs is in the block of the point numbered by its slab. -/
theorem cover (i : S32x512x512.Idx) : ∃ t : Fin cfg0.N, (cfg0.win 4).flush t = true ∧ i ∈ ((cfg0.win 4).blk t).view.set := by
  have h0 : (i 0).val < 32 := (i 0).isLt
  have h1 : (i 1).val < 512 := (i 1).isLt
  have h2 : (i 2).val < 512 := (i 2).isLt
  have ht : (i 0).val < cfg0.N := lt_of_lt_of_eq h0 (show 32 = cfg0.N from N_0.symm)
  obtain ⟨-, -, -, e0, e1, e2, -⟩ := idx_facts ⟨(i 0).val, ht⟩
  refine ⟨⟨(i 0).val, ht⟩, flush0_4 _, ?_⟩
  rw [mem_blk]
  intro a
  match a with
  | ⟨0, _⟩ =>
    show win0_4.index ⟨(i 0).val, ht⟩ (0 : Fin 3) * 1 ≤ (i 0).val ∧ (i 0).val < win0_4.index ⟨(i 0).val, ht⟩ (0 : Fin 3) * 1 + 1
    have : (⟨(i 0).val, ht⟩ : Fin cfg0.N).val = (i 0).val := rfl
    omega
  | ⟨1, _⟩ =>
    show win0_4.index ⟨(i 0).val, ht⟩ (1 : Fin 3) * 512 ≤ (i 1).val ∧ (i 1).val < win0_4.index ⟨(i 0).val, ht⟩ (1 : Fin 3) * 512 + 512
    omega
  | ⟨2, _⟩ =>
    show win0_4.index ⟨(i 0).val, ht⟩ (2 : Fin 3) * 512 ≤ (i 2).val ∧ (i 2).val < win0_4.index ⟨(i 0).val, ht⟩ (2 : Fin 3) * 512 + 512
    omega

/-- The region's result array after the run is the row of result slabs. -/
theorem final (c : Dev nD) : (dats m 0 c).arrAt 4 cfg0.N = G3 m c :=
  (dats m 0 c).arrAt_eq_of_cover 4 (G3 m c) (fun t _ => flushed_eq m c t) cover

/-! ## The host line after the region, and the run -/

/-- Slab `16 b + p` of the row of result slabs is entry `(b, p)` of the batch's result. -/
theorem slabArr_block (a0 : S2x16x512x512.Idx → EReal) (a1 : S512x1536.Idx → EReal) (a2 : S512x512.Idx → EReal) (a3 : S512.Idx → EReal)
    (b : Fin 2) (p : Fin 16) (r c : Fin 512) (t : Fin 32) (ht : t.val = 16 * b.val + p.val) :
    slabArr a0 a1 a2 a3 (ix3 t r c) = Cert.Attention.attnArr a0 a1 a2 a3 (ix4 b p r c) := by
  rw [slabArr_apply, Cert.Attention.attnArr_apply]
  have hb : ∀ h, (⟨t.val / 16, h⟩ : Fin 2) = b := fun h => Fin.ext (by show t.val / 16 = b.val; have := p.isLt; omega)
  have hp : ∀ h, (⟨t.val % 16, h⟩ : Fin 16) = p := fun h => Fin.ext (by show t.val % 16 = p.val; have := p.isLt; omega)
  simp only [hb, hp]

/-- The last host line re-lays the row of 32 result slabs as the batch: the program's result is the attention layer of
    every slab of the batch. -/
theorem tail_eq (c : Dev nD) :
    Pipeline.afterTail₀ cfgs (dats m) 0 (V0 m) [hostOps1] c main_v4
      = Cert.Attention.attnArr (m ((c : Thread nD τ).loc main_arg0)) (m ((c : Thread nD τ).loc main_arg1))
          (m ((c : Thread nD τ).loc main_arg2)) (m ((c : Thread nD τ).loc main_arg3)) := by
  have hw : Pipeline.withArrays (cfgs 0).spec c (V0 m c) (fun w => (dats m 0 c).arrAt w (cfgs 0).N) (Proc.devRef .tc main_v3) = G3 m c :=
    (Pipeline.withArrays_arr spec0 launch0.win.arr_inj c _ _ 4).trans (final m c)
  unfold Pipeline.afterTail₀
  show StableHlo.after hostOps1 _ (Proc.devRef .tc main_v4) = _
  after_results
  rw [hw]
  funext i
  obtain ⟨b, p, r, c', rfl⟩ : ∃ (b : Fin 2) (p : Fin 16) (r c' : Fin 512), i = ix4 b p r c' := ⟨i 0, i 1, i 2, i 3, eq_ix4 i⟩
  show shapeCast S2x16x512x512 (G3 m c) _ (ix4 b p r c') = _
  have hlt : 16 * b.val + p.val < 32 := by have := b.isLt; have := p.isLt; omega
  refine (shapeCast_apply (G3 m c) _ (ix4 b p r c') (ix3 (⟨16 * b.val + p.val, hlt⟩ : Fin 32) r c') ?_).trans
    (slabArr_block _ _ _ _ b p r c' ⟨16 * b.val + p.val, hlt⟩ rfl)
  show (S32x512x512.rowMajor _).val = (S2x16x512x512.rowMajor _).val
  rw [Shape.rowMajor_val_three, Shape.rowMajor_val_four]
  show ((16 * b.val + p.val) * 512 + r.val) * 512 + c'.val = ((b.val * 16 + p.val) * 512 + r.val) * 512 + c'.val
  omega

/-- At the compiled mesh, from any memory with zero counters: every weakly fair execution of the program terminates with
    its result array at the attention layer of every slab of the batch and its four arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
          = Cert.Attention.attnArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.KValue

end
-- ==== Proof.lean ====
/-
  The kernel computes multi-head self-attention of 32 slabs (batch 2 × 16, each 512 tokens of 512 features) with one
  grid point per slab; the reference computes the same layer with whole-array operations. At the extended reals both
  results are ONE function of the four argument arrays, `Cert.Attention.attnArr`: entry `(b, p, r, c)` is the attention
  layer of slab `(b, p)` at row `r` and column `c` — the slab projected to queries, keys and values, eight heads of 64
  features each scoring every query row against every key row, a softmax over each row of scores, the value rows
  summed with those weights, the heads side by side projected by the output weights, plus the bias.

  * The reference: its generated run gives the result as the composed term of its operations, read one operation at a
    time down to an index; slices, reshapes and transposes only rename indices, the two matrix products and the row
    sum are finite sums, the row maximum a fold of `max` from minus infinity (`RefValue.lean`).
  * The kernel: one body run leaves in its output block the attention layer of the slab it was given — the eight heads'
    column blocks stored into the scratch read back as the heads side by side (`HeadValue.lean`, `BodyValue.lean`); grid
    point `t` writes slab `t` of the [32, 512, 512] output, the blocks cover it, and the reshapes before and after the
    call only rename `t = 16 b + p` (`KernelValue.lean`).
  No sum is regrouped beyond its index set and no law that fails at the infinities is used, so the precondition is
  never opened. The rounding of the weights and of the intermediate values to bf16 is the identity at the extended
  reals; the ideal pass rewrote nothing, so the preservation claim is trivial. The three frames are the generated
  frame runs (the reference's its generated run with the result dropped).
-/
import proofs.«115339_j7516192768567_2_alg».proof.Defs
import proofs.«115339_j7516192768567_2_alg».proof.Proof.Gen.Kernel
import proofs.«115339_j7516192768567_2_alg».proof.Proof.Gen.Kernel.Skeleton
import proofs.«115339_j7516192768567_2_alg».proof.Proof.Gen.Kernel.Launch
import proofs.«115339_j7516192768567_2_alg».proof.Proof.Gen.Kernel.Points
import proofs.«115339_j7516192768567_2_alg».proof.Proof.Gen.Kernel.Frame
import proofs.«115339_j7516192768567_2_alg».proof.Proof.Gen.KernelIdeal
import proofs.«115339_j7516192768567_2_alg».proof.Proof.Gen.KernelIdeal.Skeleton
import proofs.«115339_j7516192768567_2_alg».proof.Proof.Gen.KernelIdeal.Launch
import proofs.«115339_j7516192768567_2_alg».proof.Proof.Gen.KernelIdeal.Points
import proofs.«115339_j7516192768567_2_alg».proof.Proof.Gen.KernelIdeal.Frame
import proofs.«115339_j7516192768567_2_alg».proof.Proof.Gen.ReferenceIdeal
import proofs.«115339_j7516192768567_2_alg».proof.Proof.Gen.Pre_finite_inputs
import proofs.«115339_j7516192768567_2_alg».proof.Proof.Gen.ReferenceIdeal.Run
import proofs.«115339_j7516192768567_2_alg».proof.Proof.Gen.ReferenceIdeal.Read
import proofs.«115339_j7516192768567_2_alg».proof.Proof.AttentionArr
import proofs.«115339_j7516192768567_2_alg».proof.Proof.RefValue
import proofs.«115339_j7516192768567_2_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result array is the attention layer of every slab: index by index (`ref_apply`). -/
theorem ref_result (x0 : (⟨Cert.ReferenceIdeal.S2x16x512x512, .f32⟩ : BufTy).Contents (Elt Ideal))
    (x1 : (⟨Cert.ReferenceIdeal.S512x1536, .f32⟩ : BufTy).Contents (Elt Ideal))
    (x2 : (⟨Cert.ReferenceIdeal.S512x512, .f32⟩ : BufTy).Contents (Elt Ideal))
    (x3 : (⟨Cert.ReferenceIdeal.S512, .f32⟩ : BufTy).Contents (Elt Ideal)) :
    Cert.ReferenceIdeal.Read.val_main_v30 (F := Ideal) x0 x1 x2 x3 = Cert.Attention.attnArr x0 x1 x2 x3 := by
  funext i
  rw [eq_ix4 i]
  exact Cert.ReferenceIdeal.RefValue.ref_apply x0 x1 x2 x3 _ _ _ _

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the attention layer of every slab of those
    arguments: the kernel's run names it directly, the reference's composed term is it index by index. -/
theorem algebraic : Cert.algebraic_KernelIdeal_ReferenceIdeal := by
  intro m ρ m' ρ' _ hagree
  refine ⟨_, Cert.KernelIdeal.KValue.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, ref_result, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
